-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S800000 : Shape := ⟨1, ![800000]⟩
abbrev S1x128x128 : Shape := ⟨3, ![1, 128, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128x128 : S_.BroadcastsInDim S1x128x128 (![] : Fin 0 → Fin S1x128x128.rank)
  reducesTo_S1x128x128_S_d0_1_2 : S1x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S1x128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128x128 .f32 := Host.absf main_arg6
  let main_cst_6 : FVec F S_ .f32 := constant S_ .f32 0x7F800000#32
  let main_v20 : FVec F S1x128x128 .f32 := broadcastInDim S1x128x128 ![] bcast_S_S1x128x128 main_cst_6
  let main_v21 : IVec S1x128x128 1 := cmpf .olt main_v19 main_v20
  let main_c_7 : IVec S_ 1 := constantI S_ 1 1#1
  let main_v22 : IVec S_ 1 := (fun x v => Host.reduce IntOp.andi x v reducesTo_S1x128x128_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x800000 32) (main_arg2 : IVec S800000 32) (main_arg3 : FVec F S1x128x128 .f32) (main_arg4 : FVec F S128x128 .f32) (main_arg5 : FVec F S128 .f32) (main_arg6 : FVec F S1x128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128x128 .f32 := Host.absf main_arg3
  let main_cst_0 : FVec F S_ .f32 := constant S_ .f32 0x7F800000#32
  let main_v5 : FVec F S1x128x128 .f32 := broadcastInDim S1x128x128 ![] bcast_S_S1x128x128 main_cst_0
  let main_v6 : IVec S1x128x128 1 := cmpf .olt main_v4 main_v5
  let main_c_1 : IVec S_ 1 := constantI S_ 1 1#1
  let main_v7 : IVec S_ 1 := (fun x v => Host.reduce IntOp.andi x v reducesTo_S1x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S2x800000 : Shape := ⟨2, ![2, 800000]⟩
abbrev S800000 : Shape := ⟨1, ![800000]⟩
abbrev S1x128x128 : Shape := ⟨3, ![1, 128, 128]⟩
abbrev S128x128 : Shape := ⟨2, ![128, 128]⟩
abbrev S128 : Shape := ⟨1, ![128]⟩
abbrev S1x800000 : Shape := ⟨2, ![1, 800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩

abbrev nBuf : Space → Nat
  | .hbm => 97
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .i32⟩
  | .hbm, ⟨3, _⟩ => ⟨S1x128x128, .f32⟩
  | .hbm, ⟨4, _⟩ => ⟨S128x128, .f32⟩
  | .hbm, ⟨5, _⟩ => ⟨S128, .f32⟩
  | .hbm, ⟨6, _⟩ => ⟨S1x128x128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S1x128, .f32⟩
  | .hbm, ⟨14, _⟩ => ⟨S100000x128, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S100000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S800000, .f32⟩
  | .hbm, ⟨23, _⟩ => ⟨S128x128, .f32⟩
  | .hbm, ⟨24, _⟩ => ⟨S100000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S100000x128, .f32⟩
  | .hbm, ⟨39, _⟩ => ⟨S800000x1, .i32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S800000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x800000, .i32⟩
  | .hbm, ⟨54, _⟩ => ⟨S800000, .i32⟩
  | .hbm, ⟨55, _⟩ => ⟨S1x800000, .i32⟩
  | .hbm, ⟨56, _⟩ => ⟨S800000, .i32⟩
  | .hbm, ⟨57, _⟩ => ⟨S1x128, .f32⟩
  | .hbm, ⟨58, _⟩ => ⟨S100000x128, .f32⟩
  | .hbm, ⟨59, _⟩ => ⟨S_, .f32⟩
  | .hbm, ⟨60, _⟩ => ⟨S1x128, .f32⟩
  | .hbm, ⟨61, _⟩ => ⟨S_, .f32⟩
  | .hbm, ⟨62, _⟩ => ⟨S100000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S800000, .f32⟩
  | .hbm, ⟨67, _⟩ => ⟨S128x128, .f32⟩
  | .hbm, ⟨68, _⟩ => ⟨S100000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x1, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S100000x128, .f32⟩
  | .hbm, ⟨83, _⟩ => ⟨S800000x1, .i32⟩
  | .hbm, ⟨84, _⟩ => ⟨S100000x128, .f32⟩
  | .hbm, ⟨85, _⟩ => ⟨S_, .f32⟩
  | .hbm, ⟨86, _⟩ => ⟨S100000, .f32⟩
  | .hbm, ⟨87, _⟩ => ⟨S800000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1x128 : S_.BroadcastsInDim S1x128 (![] : Fin 0 → Fin S1x128.rank)
  bcast_S_S100000x128 : S_.BroadcastsInDim S100000x128 (![] : Fin 0 → Fin S100000x128.rank)
  bcast_S_S800000 : S_.BroadcastsInDim S800000 (![] : Fin 0 → Fin S800000.rank)
  shapeCasts_S1x128x128_S128x128 : S1x128x128.ShapeCasts S128x128
  shapeCasts_S128x128_S128x128 : S128x128.ShapeCasts S128x128
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v35) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v41) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S800000 : Shape := ⟨1, ![800000]⟩
abbrev S1x128x128 : Shape := ⟨3, ![1, 128, 128]⟩
abbrev S128x128 : Shape := ⟨2, ![128, 128]⟩
abbrev S128 : Shape := ⟨1, ![128]⟩
abbrev S1x800000 : Shape := ⟨2, ![1, 800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .i32⟩
  | .hbm, ⟨3, _⟩ => ⟨S1x128x128, .f32⟩
  | .hbm, ⟨4, _⟩ => ⟨S128x128, .f32⟩
  | .hbm, ⟨5, _⟩ => ⟨S128, .f32⟩
  | .hbm, ⟨6, _⟩ => ⟨S1x128x128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S800000, .f32⟩
  | .hbm, ⟨21, _⟩ => ⟨S128x128, .f32⟩
  | .hbm, ⟨22, _⟩ => ⟨S100000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x1, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S100000x128, .f32⟩
  | .hbm, ⟨37, _⟩ => ⟨S800000x1, .i32⟩
  | .hbm, ⟨38, _⟩ => ⟨S100000x128, .f32⟩
  | .hbm, ⟨39, _⟩ => ⟨S_, .f32⟩
  | .hbm, ⟨40, _⟩ => ⟨S100000, .f32⟩
  | .hbm, ⟨41, _⟩ => ⟨S800000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S1x800000, .i32⟩
  | .hbm, ⟨54, _⟩ => ⟨S800000, .i32⟩
  | .hbm, ⟨55, _⟩ => ⟨S1x800000, .i32⟩
  | .hbm, ⟨56, _⟩ => ⟨S800000, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S800000, .f32⟩
  | .hbm, ⟨65, _⟩ => ⟨S128x128, .f32⟩
  | .hbm, ⟨66, _⟩ => ⟨S100000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S100000x128, .f32⟩
  | .hbm, ⟨81, _⟩ => ⟨S800000x1, .i32⟩
  | .hbm, ⟨82, _⟩ => ⟨S100000x128, .f32⟩
  | .hbm, ⟨83, _⟩ => ⟨S_, .f32⟩
  | .hbm, ⟨84, _⟩ => ⟨S100000, .f32⟩
  | .hbm, ⟨85, _⟩ => ⟨S800000x1, .i32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_5 : Ref sig .tc := ⟨.hbm, 67, rfl⟩
abbrev main_v49 : Ref sig .tc := ⟨.hbm, 68, rfl⟩
abbrev main_v50 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S800000 : S_.BroadcastsInDim S800000 (![] : Fin 0 → Fin S800000.rank)
  shapeCasts_S1x128x128_S128x128 : S1x128x128.ShapeCasts S128x128
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.KernelRun.lean ====
/-
  The idealized kernel's run with its result named.  @main is twelve segments — six stretches of host
  operations, each followed by a pallas_call — and the contents of every unscoped buffer after the last segment
  are the fold `W12` of the segments over the launch memory.  The frame's run ends with every unscoped buffer
  at `W12`; read at the result buffer that names the result, and at an argument it is the launch contents.
-/
import proofs.«132103_j42064909697807_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument as launched. -/
theorem run_main : θ_run defs (onTc (τ := τ) (main (F := F))) ⟨m, fun _ => 0, ρ⟩ (fun r => ∀ c : Dev nD,
      r.2.mem ((c.tc : Thread nD τ).loc main_v71) = W12 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v71 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Run

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  The three functions the kernel's six pallas_calls compute, index by index on the extended reals.

  A projection call leaves at entry (r, j) the row-by-column sum of its two matrix operands plus entry j of a
  one-row bias; a combining call leaves the entrywise sum of its two operands, the first layer's call the larger of that
  sum and zero.  Adding a zero row, or adding onto a zero table, changes nothing: the extended reals are a
  commutative monoid under addition, so these laws need no finiteness.
-/
import proofs.«132103_j42064909697807_1_alg».proof.Proof.LibDense

noncomputable section

namespace Cert.Spec

open Idealize.ShloMosaic Idealize.ShloMosaic.ValueIdx Cert.LibDense

/-- A projection with a one-row bias: entry (r, j) is `∑ k, X (r, k) * W (k, j)` plus `B (0, j)`. -/
def lin {n K d : ℕ} (X : (⟨2, ![n, K]⟩ : Shape).Idx → EReal) (W : (⟨2, ![K, d]⟩ : Shape).Idx → EReal)
    (B : (⟨2, ![1, d]⟩ : Shape).Idx → EReal) : (⟨2, ![n, d]⟩ : Shape).Idx → EReal :=
  fun i => prod X W i + B (ix2 ⟨0, Nat.one_pos⟩ (i 1))

/-- The entrywise sum of two tables. -/
def comb {n d : ℕ} (A B : (⟨2, ![n, d]⟩ : Shape).Idx → EReal) : (⟨2, ![n, d]⟩ : Shape).Idx → EReal :=
  fun i => A i + B i

/-- The entrywise sum of two tables, cut off below at the zero word's value. -/
def combRelu {n d : ℕ} (A B : (⟨2, ![n, d]⟩ : Shape).Idx → EReal) : (⟨2, ![n, d]⟩ : Shape).Idx → EReal :=
  fun i => max (A i + B i) (Ideal.ofBits .f32 0x00000000#32)

/-- With a zero bias row the projection is the plain product. -/
theorem lin_zero {n K d : ℕ} (X : (⟨2, ![n, K]⟩ : Shape).Idx → EReal) (W : (⟨2, ![K, d]⟩ : Shape).Idx → EReal)
    (B : (⟨2, ![1, d]⟩ : Shape).Idx → EReal) (hB : ∀ j, B j = 0) : lin X W B = prod X W := by
  funext i
  unfold lin
  rw [hB, add_zero]

/-- Adding onto a zero table first changes nothing. -/
theorem comb_zero {n d : ℕ} (A Z B : (⟨2, ![n, d]⟩ : Shape).Idx → EReal) (hZ : ∀ j, Z j = 0) :
    comb A (fun i => Z i + B i) = fun i => A i + B i := by
  funext i
  show A i + (Z i + B i) = A i + B i
  rw [hZ, zero_add]

theorem combRelu_zero {n d : ℕ} (A Z B : (⟨2, ![n, d]⟩ : Shape).Idx → EReal) (hZ : ∀ j, Z j = 0) :
    combRelu A (fun i => Z i + B i) = fun i => max (A i + B i) (Ideal.ofBits .f32 0x00000000#32) := by
  funext i
  show max (A i + (Z i + B i)) _ = max (A i + B i) _
  rw [hZ, zero_add]

end Cert.Spec

end
-- ==== Proof.Payload.lean ====
/-
  What each kernel body stores, read at an index on the extended reals.

  A projection body rounds its two matrix operands to bf16 (the identity on extended reals), multiplies them on
  the matrix unit into a zero accumulator, and adds the one-row bias broadcast down the block's rows; a combining
  body adds its two blocks, the first layer's also taking the larger of the sum and zero.
-/
import proofs.«132103_j42064909697807_1_alg».proof.Proof.Gen.KernelIdeal.Skeleton
import proofs.«132103_j42064909697807_1_alg».proof.Proof.Spec

noncomputable section

namespace Cert.KernelIdeal.Payload

open Cert.KernelIdeal Cert.KernelIdeal.Gen
open Idealize.ShloMosaic Idealize.ShloMosaic.ValueIdx Cert.LibDense Cert.Spec

/-- The printed contraction record is the plain `[2000, 128] × [128, 128]` one. -/
theorem dot_plain : dot_S2000x128_S128x128_S2000x128_1_0_0_1_n_n = DotDims.plain 2000 128 128 := rfl

/-- A one-row bias broadcast down the rows of a block, at entry (r, j), is the bias at (0, j). -/
theorem bias_bcast (x2 : Vec Ideal S1x128 .f32) (j : S2000x128.Idx) :
    broadcastTo S2000x128 (shapeCast S1x128 x2 shapeCasts_S1x128_S1x128) broadcasts_S1x128_S2000x128 j
      = x2 (ix2 ⟨0, Nat.one_pos⟩ (j 1)) := by
  rw [shapeCast_self]
  refine broadcastTo_apply x2 broadcasts_S1x128_S2000x128 j (ix2 ⟨0, Nat.one_pos⟩ (j 1)) (fun a => ?_)
  match a with
  | ⟨0, _⟩ => exact (if_pos rfl).symm
  | ⟨1, _⟩ =>
    show (j 1).val = if (128 : ℕ) = 1 then 0 else (j 1).val
    rw [if_neg (by decide)]

/-- The product of the two rounded operands into the zero accumulator, at an entry. -/
theorem mm (x0 : Vec Ideal S2000x128 .f32) (x1 : Vec Ideal S128x128 .f32) (j : S2000x128.Idx) :
    matmul dot_S2000x128_S128x128_S2000x128_1_0_0_1_n_n none (truncf .bf16 x0 bitsLt_bf16_f32 : FVec Ideal S2000x128 .bf16)
      (truncf .bf16 x1 bitsLt_bf16_f32 : FVec Ideal S128x128 .bf16) (constant (F := Ideal) S2000x128 .f32 0x00000000#32) j
      = prod x0 x1 j := by
  rw [dot_plain]
  exact matmul_plain (truncf .bf16 x0 bitsLt_bf16_f32 : FVec Ideal S2000x128 .bf16) (truncf .bf16 x1 bitsLt_bf16_f32 : FVec Ideal S128x128 .bf16) j

theorem pay0 (x0 : Vec Ideal S2000x128 .f32) (x1 : Vec Ideal S128x128 .f32) (x2 : Vec Ideal S1x128 .f32) (j : S2000x128.Idx) :
    k0_pay1 (F := Ideal) x0 x1 x2 j = lin x0 x1 x2 j := by
  unfold k0_pay1 lin
  exact congrArg₂ (· + ·) (mm x0 x1 j) (bias_bcast x2 j)

theorem pay1 (x0 : Vec Ideal S2000x128 .f32) (x1 : Vec Ideal S128x128 .f32) (x2 : Vec Ideal S1x128 .f32) (j : S2000x128.Idx) :
    k1_pay1 (F := Ideal) x0 x1 x2 j = lin x0 x1 x2 j := by
  unfold k1_pay1 lin
  rw [shapeCast_self]
  exact congrArg₂ (· + ·) (mm x0 x1 j) (bias_bcast x2 j)

theorem pay3 (x0 : Vec Ideal S2000x128 .f32) (x1 : Vec Ideal S128x128 .f32) (x2 : Vec Ideal S1x128 .f32) (j : S2000x128.Idx) :
    k3_pay1 (F := Ideal) x0 x1 x2 j = lin x0 x1 x2 j := by
  unfold k3_pay1 lin
  rw [shapeCast_self]
  exact congrArg₂ (· + ·) (mm x0 x1 j) (bias_bcast x2 j)

theorem pay4 (x0 : Vec Ideal S2000x128 .f32) (x1 : Vec Ideal S128x128 .f32) (x2 : Vec Ideal S1x128 .f32) (j : S2000x128.Idx) :
    k4_pay1 (F := Ideal) x0 x1 x2 j = lin x0 x1 x2 j := by
  unfold k4_pay1 lin
  rw [shapeCast_self, shapeCast_self]
  exact congrArg₂ (· + ·) (mm x0 x1 j) (bias_bcast x2 j)

theorem pay2 (x0 x1 : Vec Ideal S2000x128 .f32) (j : S2000x128.Idx) :
    k2_pay1 (F := Ideal) x0 x1 j = combRelu x0 x1 j := by
  unfold k2_pay1 combRelu
  rw [shapeCast_self, shapeCast_self]
  rfl

theorem pay5 (x0 x1 : Vec Ideal S2000x128 .f32) (j : S2000x128.Idx) :
    k5_pay1 (F := Ideal) x0 x1 j = comb x0 x1 j := by
  unfold k5_pay1 comb
  rw [shapeCast_self, shapeCast_self]
  rfl

end Cert.KernelIdeal.Payload

end
-- ==== Proof.Region0.lean ====
/-
  What pallas_call 0 (a projection) leaves in its result array, as one function of the three operand arrays the
  call finds.  The grid has 50 points; point t stages rows 2000·t … 2000·t + 1999 of the left operand, the whole
  right operand and the whole bias row, and writes rows 2000·t … 2000·t + 1999 of the result.  A result entry
  depends only on its own row of the left operand, so each written block is that block of the whole product plus
  bias, and the 50 blocks cover the result array.
-/
import proofs.«132103_j42064909697807_1_alg».proof.Proof.Gen.KernelIdeal.Frame
import proofs.«132103_j42064909697807_1_alg».proof.Proof.Payload
import Idealize.ShloMosaic.Lib.Pipeline.Value

noncomputable section

namespace Cert.KernelIdeal.Region0

open Cert.KernelIdeal Cert.KernelIdeal.Gen Cert.KernelIdeal.Payload
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand and the result move with the point along the rows, the right
    operand and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point t is rows 2000·t … of its array. -/
theorem rd0 (c : Dev nD) (t : Fin cfg0.N) (y : S2000x128.Idx) (k : S100000x128.Idx)
    (hk0 : (k 0).val = t.val * 2000 + (y 0).val) (hk1 : (k 1).val = (y 1).val) :
    (iblk0 V c 0 t : Vec Ideal S2000x128 .f32) y = (V c main_arg0 : S100000x128.Idx → EReal) k := by
  obtain ⟨e00, e01, -⟩ := idx_facts t
  unfold iblk0
  show V c main_arg0 (((cfg0.win 0).blk t).view.emb y) = V c main_arg0 k
  refine congrArg _ (funext fun a => Fin.ext ?_)
  match a with
  | ⟨0, _⟩ => show win0_0.index t (0 : Fin 2) * 2000 + 1 * (y 0).val = (k 0).val; rw [e00, hk0]; omega
  | ⟨1, _⟩ => show win0_0.index t (1 : Fin 2) * 128 + 1 * (y 1).val = (k 1).val; rw [e01, hk1]; omega

/-- The right operand's block at every point is its whole array. -/
theorem rd1 (c : Dev nD) (t : Fin cfg0.N) (y : S128x128.Idx) :
    (iblk0 V c 1 t : Vec Ideal S128x128 .f32) y = (V c main_arg4 : S128x128.Idx → EReal) y := by
  obtain ⟨-, -, e10, e11, -⟩ := idx_facts t
  unfold iblk0
  show V c main_arg4 (((cfg0.win 1).blk t).view.emb y) = V c main_arg4 y
  refine congrArg _ (funext fun a => Fin.ext ?_)
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The bias row's block at every point is its whole array. -/
theorem rd2 (c : Dev nD) (t : Fin cfg0.N) (y : S1x128.Idx) :
    (iblk0 V c 2 t : Vec Ideal S1x128 .f32) y = (V c main_v4 : S1x128.Idx → EReal) y := by
  obtain ⟨-, -, -, -, e20, e21, -⟩ := idx_facts t
  unfold iblk0
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

/-- The result array the call leaves: the projection of the operand arrays as the call finds them. -/
abbrev G (c : Dev nD) : S100000x128.Idx → EReal :=
  lin (V c main_arg0 : S100000x128.Idx → EReal) (V c main_arg4 : S128x128.Idx → EReal) (V c main_v4 : S1x128.Idx → EReal)

/-- What point t writes back is block t of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨-, -, -, -, -, -, e30, e31⟩ := idx_facts t
  funext j
  show k0_pay1 (iblk0 V c 0 t) (iblk0 V c 1 t) (iblk0 V c 2 t) j = G V c (((cfg0.win 3).blk t).view.emb j)
  refine (pay0 (iblk0 V c 0 t) (iblk0 V c 1 t) (iblk0 V c 2 t) j).trans ?_
  have h0 : ((((cfg0.win 3).blk t).view.emb j) 0).val = t.val * 2000 + (j 0).val := by
    show win0_3.index t (0 : Fin 2) * 2000 + 1 * (j 0).val = _; rw [e30]; omega
  have h1 : ((((cfg0.win 3).blk t).view.emb j) 1).val = (j 1).val := by
    show win0_3.index t (1 : Fin 2) * 128 + 1 * (j 1).val = _; rw [e31]; omega
  unfold G lin prod
  refine congrArg₂ (· + ·) (Finset.sum_congr rfl fun k _ => congrArg₂ (· * ·) ?_ ?_) ?_
  · exact rd0 V c t (ix2 (j 0) k) (ix2 ((((cfg0.win 3).blk t).view.emb j) 0) k) h0 rfl
  · exact (rd1 V c t (ix2 k (j 1))).trans (congrArg _ (funext fun a => Fin.ext (by
      match a with
      | ⟨0, _⟩ => rfl
      | ⟨1, _⟩ => exact h1.symm)))
  · exact (rd2 V c t (ix2 ⟨0, Nat.one_pos⟩ (j 1))).trans (congrArg _ (funext fun a => Fin.ext (by
      match a with
      | ⟨0, _⟩ => rfl
      | ⟨1, _⟩ => exact h1.symm)))

/-- An index of the result array is in point t's block iff each coordinate is in the block's range. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The 50 row blocks cover the result array: row r lies in block r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_3 _, ?_⟩
  rw [mem_blk]
  obtain ⟨-, -, -, -, -, -, e30, e31⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e31]; omega

/-- After the call the result array holds the projection of the operand arrays. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  What pallas_call 1 (a projection) leaves in its result array, as one function of the three operand arrays the
  call finds.  The grid has 50 points; point t stages rows 2000·t … 2000·t + 1999 of the left operand, the whole
  right operand and the whole bias row, and writes rows 2000·t … 2000·t + 1999 of the result.  A result entry
  depends only on its own row of the left operand, so each written block is that block of the whole product plus
  bias, and the 50 blocks cover the result array.
-/
import proofs.«132103_j42064909697807_1_alg».proof.Proof.Gen.KernelIdeal.Frame
import proofs.«132103_j42064909697807_1_alg».proof.Proof.Payload
import Idealize.ShloMosaic.Lib.Pipeline.Value

noncomputable section

namespace Cert.KernelIdeal.Region1

open Cert.KernelIdeal Cert.KernelIdeal.Gen Cert.KernelIdeal.Payload
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand and the result move with the point along the rows, the right
    operand and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left operand's block at point t is rows 2000·t … of its array. -/
theorem rd0 (c : Dev nD) (t : Fin cfg1.N) (y : S2000x128.Idx) (k : S100000x128.Idx)
    (hk0 : (k 0).val = t.val * 2000 + (y 0).val) (hk1 : (k 1).val = (y 1).val) :
    (iblk1 V c 0 t : Vec Ideal S2000x128 .f32) y = (V c main_arg0 : S100000x128.Idx → EReal) k := by
  obtain ⟨e00, e01, -⟩ := idx_facts t
  unfold iblk1
  show V c main_arg0 (((cfg1.win 0).blk t).view.emb y) = V c main_arg0 k
  refine congrArg _ (funext fun a => Fin.ext ?_)
  match a with
  | ⟨0, _⟩ => show win1_0.index t (0 : Fin 2) * 2000 + 1 * (y 0).val = (k 0).val; rw [e00, hk0]; omega
  | ⟨1, _⟩ => show win1_0.index t (1 : Fin 2) * 128 + 1 * (y 1).val = (k 1).val; rw [e01, hk1]; omega

/-- The right operand's block at every point is its whole array. -/
theorem rd1 (c : Dev nD) (t : Fin cfg1.N) (y : S128x128.Idx) :
    (iblk1 V c 1 t : Vec Ideal S128x128 .f32) y = (V c main_v11 : S128x128.Idx → EReal) y := by
  obtain ⟨-, -, e10, e11, -⟩ := idx_facts t
  unfold iblk1
  show V c main_v11 (((cfg1.win 1).blk t).view.emb y) = V c main_v11 y
  refine congrArg _ (funext fun a => Fin.ext ?_)
  match a with
  | ⟨0, _⟩ => show win1_1.index t (0 : Fin 2) * 128 + 1 * (y 0).val = (y 0).val; rw [e10]; omega
  | ⟨1, _⟩ => show win1_1.index t (1 : Fin 2) * 128 + 1 * (y 1).val = (y 1).val; rw [e11]; omega

/-- The bias row's block at every point is its whole array. -/
theorem rd2 (c : Dev nD) (t : Fin cfg1.N) (y : S1x128.Idx) :
    (iblk1 V c 2 t : Vec Ideal S1x128 .f32) y = (V c main_v6 : S1x128.Idx → EReal) y := by
  obtain ⟨-, -, -, -, e20, e21, -⟩ := idx_facts t
  unfold iblk1
  show V c main_v6 (((cfg1.win 2).blk t).view.emb y) = V c main_v6 y
  refine congrArg _ (funext fun a => Fin.ext ?_)
  match a with
  | ⟨0, _⟩ => show win1_2.index t (0 : Fin 2) * 1 + 1 * (y 0).val = (y 0).val; rw [e20]; omega
  | ⟨1, _⟩ => show win1_2.index t (1 : Fin 2) * 128 + 1 * (y 1).val = (y 1).val; rw [e21]; omega

/-- The result array the call leaves: the projection of the operand arrays as the call finds them. -/
abbrev G (c : Dev nD) : S100000x128.Idx → EReal :=
  lin (V c main_arg0 : S100000x128.Idx → EReal) (V c main_v11 : S128x128.Idx → EReal) (V c main_v6 : S1x128.Idx → EReal)

/-- What point t writes back is block t of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S1x128) hz]
  obtain ⟨-, -, -, -, -, -, e30, e31⟩ := idx_facts t
  funext j
  show k1_pay1 (iblk1 V c 0 t) (iblk1 V c 1 t) (iblk1 V c 2 t) j = G V c (((cfg1.win 3).blk t).view.emb j)
  refine (pay1 (iblk1 V c 0 t) (iblk1 V c 1 t) (iblk1 V c 2 t) j).trans ?_
  have h0 : ((((cfg1.win 3).blk t).view.emb j) 0).val = t.val * 2000 + (j 0).val := by
    show win1_3.index t (0 : Fin 2) * 2000 + 1 * (j 0).val = _; rw [e30]; omega
  have h1 : ((((cfg1.win 3).blk t).view.emb j) 1).val = (j 1).val := by
    show win1_3.index t (1 : Fin 2) * 128 + 1 * (j 1).val = _; rw [e31]; omega
  unfold G lin prod
  refine congrArg₂ (· + ·) (Finset.sum_congr rfl fun k _ => congrArg₂ (· * ·) ?_ ?_) ?_
  · exact rd0 V c t (ix2 (j 0) k) (ix2 ((((cfg1.win 3).blk t).view.emb j) 0) k) h0 rfl
  · exact (rd1 V c t (ix2 k (j 1))).trans (congrArg _ (funext fun a => Fin.ext (by
      match a with
      | ⟨0, _⟩ => rfl
      | ⟨1, _⟩ => exact h1.symm)))
  · exact (rd2 V c t (ix2 ⟨0, Nat.one_pos⟩ (j 1))).trans (congrArg _ (funext fun a => Fin.ext (by
      match a with
      | ⟨0, _⟩ => rfl
      | ⟨1, _⟩ => exact h1.symm)))

/-- An index of the result array is in point t's block iff each coordinate is in the block's range. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v12).slice (win1_3.rect t)).set ↔ _
  rw [View.set_slice_whole, Rect.mem_set_unit]
  exact Iff.rfl

/-- The 50 row blocks cover the result array: row r lies in block r / 2000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_3 _, ?_⟩
  rw [mem_blk]
  obtain ⟨-, -, -, -, -, -, e30, e31⟩ := idx_facts ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e30]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e31]; omega

/-- After the call the result array holds the projection of the operand arrays. -/
theorem final (c : Dev nD) : (dat1 V c).arrAt 3 cfg1.N = G V c :=
  (dat1 V c).arrAt_eq_of_cover 3 (G V c) (fun t _ => flushed_eq V c t) cover

end Cert.KernelIdeal.Region1

end
-- ==== Proof.Region2.lean ====
/-
  What pallas_call 2 (a combining call) leaves in its result array, as one function of the two operand arrays the
  call finds.  The grid has 50 points; point t stages rows 2000·t … 2000·t + 1999 of both operands and writes the
  same rows of the result, their entrywise sum cut off below at zero.  The operation is entrywise, so each written block is that block of the whole
  arrays' combination, and the 50 blocks cover the result array.
-/
import proofs.«132103_j42064909697807_1_alg».proof.Proof.Gen.KernelIdeal.Frame
import proofs.«132103_j42064909697807_1_alg».proof.Proof.Payload
import Idealize.ShloMosaic.Lib.Pipeline.Value

noncomputable section

namespace Cert.KernelIdeal.Region2

open Cert.KernelIdeal Cert.KernelIdeal.Gen Cert.KernelIdeal.Payload
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: all three windows move with the point along the rows. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The first operand's block at point t is rows 2000·t … of its array. -/
theorem rd0 (c : Dev nD) (t : Fin cfg2.N) (y : S2000x128.Idx) (k : S100000x128.Idx)
    (hk0 : (k 0).val = t.val * 2000 + (y 0).val) (hk1 : (k 1).val = (y 1).val) :
    (iblk2 V c 0 t : Vec Ideal S2000x128 .f32) y = (V c main_v5 : S100000x128.Idx → EReal) k := by
  obtain ⟨e00, e01, -⟩ := idx_facts t
  unfold iblk2
  show V c main_v5 (((cfg2.win 0).blk t).view.emb y) = V c main_v5 k
  refine congrArg _ (funext fun a => Fin.ext ?_)
  match a with
  | ⟨0, _⟩ => show win2_0.index t (0 : Fin 2) * 2000 + 1 * (y 0).val = (k 0).val; rw [e00, hk0]; omega
  | ⟨1, _⟩ => show win2_0.index t (1 : Fin 2) * 128 + 1 * (y 1).val = (k 1).val; rw [e01, hk1]; omega

/-- The second operand's block at point t is rows 2000·t … of its array. -/
theorem rd1 (c : Dev nD) (t : Fin cfg2.N) (y : S2000x128.Idx) (k : S100000x128.Idx)
    (hk0 : (k 0).val = t.val * 2000 + (y 0).val) (hk1 : (k 1).val = (y 1).val) :
    (iblk2 V c 1 t : Vec Ideal S2000x128 .f32) y = (V c main_v34 : S100000x128.Idx → EReal) k := by
  obtain ⟨-, -, e10, e11, -⟩ := idx_facts t
  unfold iblk2
  show V c main_v34 (((cfg2.win 1).blk t).view.emb y) = V c main_v34 k
  refine congrArg _ (funext fun a => Fin.ext ?_)
  match a with
  | ⟨0, _⟩ => show win2_1.index t (0 : Fin 2) * 2000 + 1 * (y 0).val = (k 0).val; rw [e10, hk0]; omega
  | ⟨1, _⟩ => show win2_1.index t (1 : Fin 2) * 128 + 1 * (y 1).val = (k 1).val; rw [e11, hk1]; omega

/-- The result array the call leaves: the combination of the operand arrays as the call finds them. -/
abbrev G (c : Dev nD) : S100000x128.Idx → EReal :=
  combRelu (V c main_v5 : S100000x128.Idx → EReal) (V c main_v34 : S100000x128.Idx → EReal)

/-- What point t writes back is block t of `G`. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S2000x128) hz]
  obtain ⟨-, -, -, -, e20, e21⟩ := idx_facts t
  funext j
  show k2_pay1 (iblk2 V c 0 t) (iblk2 V c 1 t) j = G V c (((cfg2.win 2).blk t).view.emb j)
  refine (pay2 (iblk2 V c 0 t) (iblk2 V c 1 t) j).trans ?_
  have h0 : ((((cfg2.win 2).blk t).view.emb j) 0).val = t.val * 2000 + (j 0).val := by
    show win2_2.index t (0 : Fin 2) * 2000 + 1 * (j 0).val = _; rw [e20]; omega
  have h1 : ((((cfg2.win 2).blk t).view.emb j) 1).val = (j 1).val := by
    show win2_2.index t (1 : Fin 2) * 128 + 1 * (j 1).val = _; rw [e21]; omega
  unfold G combRelu
  rw [rd0 V c t j (((cfg2.win 2).blk t).view.emb j) h0 h1, rd1 V c t j (((cfg2.win 2).blk t).view.emb j) h0 h1]

/-- An index of the result array is in point t's block iff each coordinate is in the block's range. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v35).slice (win2_2.rect t)).set ↔ _
  rw [View.set_slice_whole, Rect.mem_set_unit]
  exact Iff.rfl

/-- The 50 row blocks cover the result array: row r lies in block r / 2000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_2 _, ?_⟩
  rw [mem_blk]
  obtain ⟨-, -, -, -, e20, e21⟩ := idx_facts ⟨(i 0).val / 2000, by rw [hN]; omega⟩
  intro a
  match a with
  | ⟨0, _⟩ =>
    show win2_2.index _ (0 : Fin 2) * 2000 ≤ (i 0).val ∧ (i 0).val < win2_2.index _ (0 : Fin 2) * 2000 + 2000
    rw [e20]; show (i 0).val / 2000 * 2000 ≤ (i 0).val ∧ (i 0).val < (i 0).val / 2000 * 2000 + 2000; omega
  | ⟨1, _⟩ =>
    show win2_2.index _ (1 : Fin 2) * 128 ≤ (i 1).val ∧ (i 1).val < win2_2.index _ (1 : Fin 2) * 128 + 128
    rw [e21]; omega

/-- After the call the result array holds the combination of the operand arrays. -/
theorem final (c : Dev nD) : (dat2 V c).arrAt 2 cfg2.N = G V c :=
  (dat2 V c).arrAt_eq_of_cover 2 (G V c) (fun t _ => flushed_eq V c t) cover

end Cert.KernelIdeal.Region2

end
-- ==== Proof.Region3.lean ====
/-
  What pallas_call 3 (a projection) leaves in its result array, as one function of the three operand arrays the
  call finds.  The grid has 50 points; point t stages rows 2000·t … 2000·t + 1999 of the left operand, the whole
  right operand and the whole bias row, and writes rows 2000·t … 2000·t + 1999 of the result.  A result entry
  depends only on its own row of the left operand, so each written block is that block of the whole product plus
  bias, and the 50 blocks cover the result array.
-/
import proofs.«132103_j42064909697807_1_alg».proof.Proof.Gen.KernelIdeal.Frame
import proofs.«132103_j42064909697807_1_alg».proof.Proof.Payload
import Idealize.ShloMosaic.Lib.Pipeline.Value

noncomputable section

namespace Cert.KernelIdeal.Region3

open Cert.KernelIdeal Cert.KernelIdeal.Gen Cert.KernelIdeal.Payload
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand and the result move with the point along the rows, the right
    operand and the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The left operand's block at point t is rows 2000·t … of its array. -/
theorem rd0 (c : Dev nD) (t : Fin cfg3.N) (y : S2000x128.Idx) (k : S100000x128.Idx)
    (hk0 : (k 0).val = t.val * 2000 + (y 0).val) (hk1 : (k 1).val = (y 1).val) :
    (iblk3 V c 0 t : Vec Ideal S2000x128 .f32) y = (V c main_v35 : S100000x128.Idx → EReal) k := by
  obtain ⟨e00, e01, -⟩ := idx_facts t
  unfold iblk3
  show V c main_v35 (((cfg3.win 0).blk t).view.emb y) = V c main_v35 k
  refine congrArg _ (funext fun a => Fin.ext ?_)
  match a with
  | ⟨0, _⟩ => show win3_0.index t (0 : Fin 2) * 2000 + 1 * (y 0).val = (k 0).val; rw [e00, hk0]; omega
  | ⟨1, _⟩ => show win3_0.index t (1 : Fin 2) * 128 + 1 * (y 1).val = (k 1).val; rw [e01, hk1]; omega

/-- The right operand's block at every point is its whole array. -/
theorem rd1 (c : Dev nD) (t : Fin cfg3.N) (y : S128x128.Idx) :
    (iblk3 V c 1 t : Vec Ideal S128x128 .f32) y = (V c main_arg7 : S128x128.Idx → EReal) y := by
  obtain ⟨-, -, e10, e11, -⟩ := idx_facts t
  unfold iblk3
  show V c main_arg7 (((cfg3.win 1).blk t).view.emb y) = V c main_arg7 y
  refine congrArg _ (funext fun a => Fin.ext ?_)
  match a with
  | ⟨0, _⟩ => show win3_1.index t (0 : Fin 2) * 128 + 1 * (y 0).val = (y 0).val; rw [e10]; omega
  | ⟨1, _⟩ => show win3_1.index t (1 : Fin 2) * 128 + 1 * (y 1).val = (y 1).val; rw [e11]; omega

/-- The bias row's block at every point is its whole array. -/
theorem rd2 (c : Dev nD) (t : Fin cfg3.N) (y : S1x128.Idx) :
    (iblk3 V c 2 t : Vec Ideal S1x128 .f32) y = (V c main_v40 : S1x128.Idx → EReal) y := by
  obtain ⟨-, -, -, -, e20, e21, -⟩ := idx_facts t
  unfold iblk3
  show V c main_v40 (((cfg3.win 2).blk t).view.emb y) = V c main_v40 y
  refine congrArg _ (funext fun a => Fin.ext ?_)
  match a with
  | ⟨0, _⟩ => show win3_2.index t (0 : Fin 2) * 1 + 1 * (y 0).val = (y 0).val; rw [e20]; omega
  | ⟨1, _⟩ => show win3_2.index t (1 : Fin 2) * 128 + 1 * (y 1).val = (y 1).val; rw [e21]; omega

/-- The result array the call leaves: the projection of the operand arrays as the call finds them. -/
abbrev G (c : Dev nD) : S100000x128.Idx → EReal :=
  lin (V c main_v35 : S100000x128.Idx → EReal) (V c main_arg7 : S128x128.Idx → EReal) (V c main_v40 : S1x128.Idx → EReal)

/-- What point t writes back is block t of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz, View.ld_unit_zero (S := S1x128) hz]
  obtain ⟨-, -, -, -, -, -, e30, e31⟩ := idx_facts t
  funext j
  show k3_pay1 (iblk3 V c 0 t) (iblk3 V c 1 t) (iblk3 V c 2 t) j = G V c (((cfg3.win 3).blk t).view.emb j)
  refine (pay3 (iblk3 V c 0 t) (iblk3 V c 1 t) (iblk3 V c 2 t) j).trans ?_
  have h0 : ((((cfg3.win 3).blk t).view.emb j) 0).val = t.val * 2000 + (j 0).val := by
    show win3_3.index t (0 : Fin 2) * 2000 + 1 * (j 0).val = _; rw [e30]; omega
  have h1 : ((((cfg3.win 3).blk t).view.emb j) 1).val = (j 1).val := by
    show win3_3.index t (1 : Fin 2) * 128 + 1 * (j 1).val = _; rw [e31]; omega
  unfold G lin prod
  refine congrArg₂ (· + ·) (Finset.sum_congr rfl fun k _ => congrArg₂ (· * ·) ?_ ?_) ?_
  · exact rd0 V c t (ix2 (j 0) k) (ix2 ((((cfg3.win 3).blk t).view.emb j) 0) k) h0 rfl
  · exact (rd1 V c t (ix2 k (j 1))).trans (congrArg _ (funext fun a => Fin.ext (by
      match a with
      | ⟨0, _⟩ => rfl
      | ⟨1, _⟩ => exact h1.symm)))
  · exact (rd2 V c t (ix2 ⟨0, Nat.one_pos⟩ (j 1))).trans (congrArg _ (funext fun a => Fin.ext (by
      match a with
      | ⟨0, _⟩ => rfl
      | ⟨1, _⟩ => exact h1.symm)))

/-- An index of the result array is in point t's block iff each coordinate is in the block's range. -/
theorem mem_blk (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v41).slice (win3_3.rect t)).set ↔ _
  rw [View.set_slice_whole, Rect.mem_set_unit]
  exact Iff.rfl

/-- The 50 row blocks cover the result array: row r lies in block r / 2000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_3 _, ?_⟩
  rw [mem_blk]
  obtain ⟨-, -, -, -, -, -, e30, e31⟩ := idx_facts ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e30]; show (i 0).val / 2000 * 2000 ≤ (i 0).val ∧ (i 0).val < (i 0).val / 2000 * 2000 + 2000; omega
  | ⟨1, _⟩ =>
    show win3_3.index _ (1 : Fin 2) * 128 ≤ (i 1).val ∧ (i 1).val < win3_3.index _ (1 : Fin 2) * 128 + 128
    rw [e31]; omega

/-- After the call the result array holds the projection of the operand arrays. -/
theorem final (c : Dev nD) : (dat3 V c).arrAt 3 cfg3.N = G V c :=
  (dat3 V c).arrAt_eq_of_cover 3 (G V c) (fun t _ => flushed_eq V c t) cover

end Cert.KernelIdeal.Region3

end
-- ==== Proof.Region4.lean ====
/-
  What pallas_call 4 (a projection) leaves in its result array, as one function of the three operand arrays the
  call finds.  The grid has 50 points; point t stages rows 2000·t … 2000·t + 1999 of the left operand, the whole
  right operand and the whole bias row, and writes rows 2000·t … 2000·t + 1999 of the result.  A result entry
  depends only on its own row of the left operand, so each written block is that block of the whole product plus
  bias, and the 50 blocks cover the result array.
-/
import proofs.«132103_j42064909697807_1_alg».proof.Proof.Gen.KernelIdeal.Frame
import proofs.«132103_j42064909697807_1_alg».proof.Proof.Payload
import Idealize.ShloMosaic.Lib.Pipeline.Value

noncomputable section

namespace Cert.KernelIdeal.Region4

open Cert.KernelIdeal Cert.KernelIdeal.Gen Cert.KernelIdeal.Payload
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the left operand and the result move with the point along the rows, the right
    operand and the bias stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The left operand's block at point t is rows 2000·t … of its array. -/
theorem rd0 (c : Dev nD) (t : Fin cfg4.N) (y : S2000x128.Idx) (k : S100000x128.Idx)
    (hk0 : (k 0).val = t.val * 2000 + (y 0).val) (hk1 : (k 1).val = (y 1).val) :
    (iblk4 V c 0 t : Vec Ideal S2000x128 .f32) y = (V c main_v35 : S100000x128.Idx → EReal) k := by
  obtain ⟨e00, e01, -⟩ := idx_facts t
  unfold iblk4
  show V c main_v35 (((cfg4.win 0).blk t).view.emb y) = V c main_v35 k
  refine congrArg _ (funext fun a => Fin.ext ?_)
  match a with
  | ⟨0, _⟩ => show win4_0.index t (0 : Fin 2) * 2000 + 1 * (y 0).val = (k 0).val; rw [e00, hk0]; omega
  | ⟨1, _⟩ => show win4_0.index t (1 : Fin 2) * 128 + 1 * (y 1).val = (k 1).val; rw [e01, hk1]; omega

/-- The right operand's block at every point is its whole array. -/
theorem rd1 (c : Dev nD) (t : Fin cfg4.N) (y : S128x128.Idx) :
    (iblk4 V c 1 t : Vec Ideal S128x128 .f32) y = (V c main_v47 : S128x128.Idx → EReal) y := by
  obtain ⟨-, -, e10, e11, -⟩ := idx_facts t
  unfold iblk4
  show V c main_v47 (((cfg4.win 1).blk t).view.emb y) = V c main_v47 y
  refine congrArg _ (funext fun a => Fin.ext ?_)
  match a with
  | ⟨0, _⟩ => show win4_1.index t (0 : Fin 2) * 128 + 1 * (y 0).val = (y 0).val; rw [e10]; omega
  | ⟨1, _⟩ => show win4_1.index t (1 : Fin 2) * 128 + 1 * (y 1).val = (y 1).val; rw [e11]; omega

/-- The bias row's block at every point is its whole array. -/
theorem rd2 (c : Dev nD) (t : Fin cfg4.N) (y : S1x128.Idx) :
    (iblk4 V c 2 t : Vec Ideal S1x128 .f32) y = (V c main_v42 : S1x128.Idx → EReal) y := by
  obtain ⟨-, -, -, -, e20, e21, -⟩ := idx_facts t
  unfold iblk4
  show V c main_v42 (((cfg4.win 2).blk t).view.emb y) = V c main_v42 y
  refine congrArg _ (funext fun a => Fin.ext ?_)
  match a with
  | ⟨0, _⟩ => show win4_2.index t (0 : Fin 2) * 1 + 1 * (y 0).val = (y 0).val; rw [e20]; omega
  | ⟨1, _⟩ => show win4_2.index t (1 : Fin 2) * 128 + 1 * (y 1).val = (y 1).val; rw [e21]; omega

/-- The result array the call leaves: the projection of the operand arrays as the call finds them. -/
abbrev G (c : Dev nD) : S100000x128.Idx → EReal :=
  lin (V c main_v35 : S100000x128.Idx → EReal) (V c main_v47 : S128x128.Idx → EReal) (V c main_v42 : S1x128.Idx → EReal)

/-- What point t writes back is block t of `G`. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S1x128) hz]
  obtain ⟨-, -, -, -, -, -, e30, e31⟩ := idx_facts t
  funext j
  show k4_pay1 (iblk4 V c 0 t) (iblk4 V c 1 t) (iblk4 V c 2 t) j = G V c (((cfg4.win 3).blk t).view.emb j)
  refine (pay4 (iblk4 V c 0 t) (iblk4 V c 1 t) (iblk4 V c 2 t) j).trans ?_
  have h0 : ((((cfg4.win 3).blk t).view.emb j) 0).val = t.val * 2000 + (j 0).val := by
    show win4_3.index t (0 : Fin 2) * 2000 + 1 * (j 0).val = _; rw [e30]; omega
  have h1 : ((((cfg4.win 3).blk t).view.emb j) 1).val = (j 1).val := by
    show win4_3.index t (1 : Fin 2) * 128 + 1 * (j 1).val = _; rw [e31]; omega
  unfold G lin prod
  refine congrArg₂ (· + ·) (Finset.sum_congr rfl fun k _ => congrArg₂ (· * ·) ?_ ?_) ?_
  · exact rd0 V c t (ix2 (j 0) k) (ix2 ((((cfg4.win 3).blk t).view.emb j) 0) k) h0 rfl
  · exact (rd1 V c t (ix2 k (j 1))).trans (congrArg _ (funext fun a => Fin.ext (by
      match a with
      | ⟨0, _⟩ => rfl
      | ⟨1, _⟩ => exact h1.symm)))
  · exact (rd2 V c t (ix2 ⟨0, Nat.one_pos⟩ (j 1))).trans (congrArg _ (funext fun a => Fin.ext (by
      match a with
      | ⟨0, _⟩ => rfl
      | ⟨1, _⟩ => exact h1.symm)))

/-- An index of the result array is in point t's block iff each coordinate is in the block's range. -/
theorem mem_blk (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v48).slice (win4_3.rect t)).set ↔ _
  rw [View.set_slice_whole, Rect.mem_set_unit]
  exact Iff.rfl

/-- The 50 row blocks cover the result array: row r lies in block r / 2000. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 50 := N_4
  refine ⟨⟨(i 0).val / 2000, by rw [hN]; omega⟩, flush4_3 _, ?_⟩
  rw [mem_blk]
  obtain ⟨-, -, -, -, -, -, e30, e31⟩ := idx_facts ⟨(i 0).val / 2000, by rw [hN]; omega⟩
  intro a
  match a with
  | ⟨0, _⟩ =>
    show win4_3.index _ (0 : Fin 2) * 2000 ≤ (i 0).val ∧ (i 0).val < win4_3.index _ (0 : Fin 2) * 2000 + 2000
    rw [e30]; show (i 0).val / 2000 * 2000 ≤ (i 0).val ∧ (i 0).val < (i 0).val / 2000 * 2000 + 2000; omega
  | ⟨1, _⟩ =>
    show win4_3.index _ (1 : Fin 2) * 128 ≤ (i 1).val ∧ (i 1).val < win4_3.index _ (1 : Fin 2) * 128 + 128
    rw [e31]; omega

/-- After the call the result array holds the projection of the operand arrays. -/
theorem final (c : Dev nD) : (dat4 V c).arrAt 3 cfg4.N = G V c :=
  (dat4 V c).arrAt_eq_of_cover 3 (G V c) (fun t _ => flushed_eq V c t) cover

end Cert.KernelIdeal.Region4

end
-- ==== Proof.Region5.lean ====
/-
  What pallas_call 5 (a combining call) leaves in its result array, as one function of the two operand arrays the
  call finds.  The grid has 50 points; point t stages rows 2000·t … 2000·t + 1999 of both operands and writes the
  same rows of the result, their entrywise sum.  The operation is entrywise, so each written block is that block of the whole
  arrays' combination, and the 50 blocks cover the result array.
-/
import proofs.«132103_j42064909697807_1_alg».proof.Proof.Gen.KernelIdeal.Frame
import proofs.«132103_j42064909697807_1_alg».proof.Proof.Payload
import Idealize.ShloMosaic.Lib.Pipeline.Value

noncomputable section

namespace Cert.KernelIdeal.Region5

open Cert.KernelIdeal Cert.KernelIdeal.Gen Cert.KernelIdeal.Payload
open Idealize.ShloMosaic Idealize.ShloMosaic.TcCoe Idealize.SL.Sem Idealize.ShloMosaic.ValueIdx Cert.LibDense Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: all three windows move with the point along the rows. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The first operand's block at point t is rows 2000·t … of its array. -/
theorem rd0 (c : Dev nD) (t : Fin cfg5.N) (y : S2000x128.Idx) (k : S100000x128.Idx)
    (hk0 : (k 0).val = t.val * 2000 + (y 0).val) (hk1 : (k 1).val = (y 1).val) :
    (iblk5 V c 0 t : Vec Ideal S2000x128 .f32) y = (V c main_v41 : S100000x128.Idx → EReal) k := by
  obtain ⟨e00, e01, -⟩ := idx_facts t
  unfold iblk5
  show V c main_v41 (((cfg5.win 0).blk t).view.emb y) = V c main_v41 k
  refine congrArg _ (funext fun a => Fin.ext ?_)
  match a with
  | ⟨0, _⟩ => show win5_0.index t (0 : Fin 2) * 2000 + 1 * (y 0).val = (k 0).val; rw [e00, hk0]; omega
  | ⟨1, _⟩ => show win5_0.index t (1 : Fin 2) * 128 + 1 * (y 1).val = (k 1).val; rw [e01, hk1]; omega

/-- The second operand's block at point t is rows 2000·t … of its array. -/
theorem rd1 (c : Dev nD) (t : Fin cfg5.N) (y : S2000x128.Idx) (k : S100000x128.Idx)
    (hk0 : (k 0).val = t.val * 2000 + (y 0).val) (hk1 : (k 1).val = (y 1).val) :
    (iblk5 V c 1 t : Vec Ideal S2000x128 .f32) y = (V c main_v70 : S100000x128.Idx → EReal) k := by
  obtain ⟨-, -, e10, e11, -⟩ := idx_facts t
  unfold iblk5
  show V c main_v70 (((cfg5.win 1).blk t).view.emb y) = V c main_v70 k
  refine congrArg _ (funext fun a => Fin.ext ?_)
  match a with
  | ⟨0, _⟩ => show win5_1.index t (0 : Fin 2) * 2000 + 1 * (y 0).val = (k 0).val; rw [e10, hk0]; omega
  | ⟨1, _⟩ => show win5_1.index t (1 : Fin 2) * 128 + 1 * (y 1).val = (k 1).val; rw [e11, hk1]; omega

/-- The result array the call leaves: the combination of the operand arrays as the call finds them. -/
abbrev G (c : Dev nD) : S100000x128.Idx → EReal :=
  comb (V c main_v41 : S100000x128.Idx → EReal) (V c main_v70 : S100000x128.Idx → EReal)

/-- What point t writes back is block t of `G`. -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S2000x128) hz]
  obtain ⟨-, -, -, -, e20, e21⟩ := idx_facts t
  funext j
  show k5_pay1 (iblk5 V c 0 t) (iblk5 V c 1 t) j = G V c (((cfg5.win 2).blk t).view.emb j)
  refine (pay5 (iblk5 V c 0 t) (iblk5 V c 1 t) j).trans ?_
  have h0 : ((((cfg5.win 2).blk t).view.emb j) 0).val = t.val * 2000 + (j 0).val := by
    show win5_2.index t (0 : Fin 2) * 2000 + 1 * (j 0).val = _; rw [e20]; omega
  have h1 : ((((cfg5.win 2).blk t).view.emb j) 1).val = (j 1).val := by
    show win5_2.index t (1 : Fin 2) * 128 + 1 * (j 1).val = _; rw [e21]; omega
  unfold G comb
  rw [rd0 V c t j (((cfg5.win 2).blk t).view.emb j) h0 h1, rd1 V c t j (((cfg5.win 2).blk t).view.emb j) h0 h1]

/-- An index of the result array is in point t's block iff each coordinate is in the block's range. -/
theorem mem_blk (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v71).slice (win5_2.rect t)).set ↔ _
  rw [View.set_slice_whole, Rect.mem_set_unit]
  exact Iff.rfl

/-- The 50 row blocks cover the result array: row r lies in block r / 2000. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 50 := N_5
  refine ⟨⟨(i 0).val / 2000, by rw [hN]; omega⟩, flush5_2 _, ?_⟩
  rw [mem_blk]
  obtain ⟨-, -, -, -, e20, e21⟩ := idx_facts ⟨(i 0).val / 2000, by rw [hN]; omega⟩
  intro a
  match a with
  | ⟨0, _⟩ =>
    show win5_2.index _ (0 : Fin 2) * 2000 ≤ (i 0).val ∧ (i 0).val < win5_2.index _ (0 : Fin 2) * 2000 + 2000
    rw [e20]; show (i 0).val / 2000 * 2000 ≤ (i 0).val ∧ (i 0).val < (i 0).val / 2000 * 2000 + 2000; omega
  | ⟨1, _⟩ =>
    show win5_2.index _ (1 : Fin 2) * 128 ≤ (i 1).val ∧ (i 1).val < win5_2.index _ (1 : Fin 2) * 128 + 128
    rw [e21]; omega

/-- After the call the result array holds the combination of the operand arrays. -/
theorem final (c : Dev nD) : (dat5 V c).arrAt 2 cfg5.N = G V c :=
  (dat5 V c).arrAt_eq_of_cover 2 (G V c) (fun t _ => flushed_eq V c t) cover

end Cert.KernelIdeal.Region5

end
-- ==== Proof.HostChain.lean ====
/-
  The host-side pieces both programs share, as functions of their operands.

  From the edge list: its two rows (source and destination node of each edge) and the relation mask (1.0 where the
  edge type is 0).  The aggregation of a node table `h`: gather the rows of `h` at the (wrapped) source nodes, scale
  each by its mask, scatter-add them into a zero table at the destination nodes, and divide each row by the larger
  of 1 and the scatter-added mask count of that node.  One layer of the reference: the root projection plus bias
  plus the aggregation of the relation projection.
-/
import proofs.«132103_j42064909697807_1_alg».proof.Proof.Gen.ReferenceIdeal
import Idealize.ShloMosaic.PureOps.Ideal

noncomputable section

namespace Cert.Host

open Cert.ReferenceIdeal Cert.ReferenceIdeal.Gen Idealize.ShloMosaic

variable {F : FTy → Type} [FloatOps F]

/-- Row 0 of the edge list: the source node of each edge. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of each edge. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The relation mask: 1.0 on the edges of type 0, 0.0 elsewhere. -/
def mask (et : (⟨S800000, .i32⟩ : BufTy).Contents (Elt F)) : (⟨S800000, .f32⟩ : BufTy).Contents (Elt F) :=
  uitofp .f32 (cmpi .eq et (broadcastInDim S800000 ![] bcast_S_S800000 (constantI S_ 32 0#32)))

/-- The mean aggregation of the node table `h` over the edges with sources `s`, destinations `d` and weights `w`. -/
def agg (h : (⟨S100000x128, .f32⟩ : BufTy).Contents (Elt F)) (s d : (⟨S800000, .i32⟩ : BufTy).Contents (Elt F))
    (w : (⟨S800000, .f32⟩ : BufTy).Contents (Elt F)) : (⟨S100000x128, .f32⟩ : BufTy).Contents (Elt F) :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 d)
      (mulf
        (Host.gather gather_S100000x128_S800000x1_S800000x128_1_0_n_n_0_1_1128 h
          (broadcastInDim S800000x1 ![0] bcast_S800000_S800000x1_0
            (select (cmpi .slt s (broadcastInDim S800000 ![] bcast_S_S800000 (constantI S_ 32 0#32)))
              (addi s (broadcastInDim S800000 ![] bcast_S_S800000 (constantI S_ 32 100000#32))) s)))
        (broadcastInDim S800000x128 ![0, 1] bcast_S800000x1_S800000x128_0_1
          (broadcastInDim S800000x1 ![0] bcast_S800000_S800000x1_0 w))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32))
            (broadcastInDim S800000x1 ![0] bcast_S800000_S800000x1_0 d) w)
          (broadcastInDim S100000 ![] bcast_S_S100000 (constant S_ .f32 0x3F800000#32)))))

/-- One layer of the reference on the node table `x`: `x · root + b` plus the aggregation of `x · W`. -/
def layer (x : (⟨S100000x128, .f32⟩ : BufTy).Contents (Elt F)) (W : (⟨S1x128x128, .f32⟩ : BufTy).Contents (Elt F))
    (root : (⟨S128x128, .f32⟩ : BufTy).Contents (Elt F)) (b : (⟨S128, .f32⟩ : BufTy).Contents (Elt F))
    (e : (⟨S2x800000, .i32⟩ : BufTy).Contents (Elt F)) (et : (⟨S800000, .i32⟩ : BufTy).Contents (Elt F)) :
    (⟨S100000x128, .f32⟩ : BufTy).Contents (Elt F) :=
  addf
    (addf (Host.dotGeneral dot_S100000x128_S128x128_S100000x128_1_0_0_1_n_n none x root)
      (broadcastInDim S100000x128 ![0, 1] bcast_S1x128_S100000x128_0_1 (broadcastInDim S1x128 ![1] bcast_S128_S1x128_1 b)))
    (agg (Host.dotGeneral dot_S100000x128_S128x128_S100000x128_1_0_0_1_n_n none x (shapeCast _ W shapeCasts_S1x128x128_S128x128))
      (src e) (dst e) (mask et))

/-- The two layers with the rectifier between them. -/
def net (x : (⟨S100000x128, .f32⟩ : BufTy).Contents (Elt F)) (e : (⟨S2x800000, .i32⟩ : BufTy).Contents (Elt F))
    (et : (⟨S800000, .i32⟩ : BufTy).Contents (Elt F))
    (W1 : (⟨S1x128x128, .f32⟩ : BufTy).Contents (Elt F)) (root1 : (⟨S128x128, .f32⟩ : BufTy).Contents (Elt F)) (b1 : (⟨S128, .f32⟩ : BufTy).Contents (Elt F))
    (W2 : (⟨S1x128x128, .f32⟩ : BufTy).Contents (Elt F)) (root2 : (⟨S128x128, .f32⟩ : BufTy).Contents (Elt F)) (b2 : (⟨S128, .f32⟩ : BufTy).Contents (Elt F)) :
    (⟨S100000x128, .f32⟩ : BufTy).Contents (Elt F) :=
  layer (maximumf (layer x W1 root1 b1 e et) (broadcastInDim S100000x128 ![] bcast_S_S100000x128 (constant S_ .f32 0x00000000#32)))
    W2 root2 b2 e et

end Cert.Host

end
-- ==== Proof.KernelFn.lean ====
/-
  The idealized kernel's result as one function of the nine argument arrays, on the extended reals: per layer a
  root projection with the bias as a one-row table, a relation projection with a zero bias row, the mean
  aggregation of the latter over the edges added onto a zero table, and their sum — rectified after the first layer.
-/
import proofs.«132103_j42064909697807_1_alg».proof.Proof.Gen.KernelIdeal
import proofs.«132103_j42064909697807_1_alg».proof.Proof.Spec
import proofs.«132103_j42064909697807_1_alg».proof.Proof.HostChain

noncomputable section

namespace Cert.KernelIdeal.Chain

open Cert.KernelIdeal Cert.KernelIdeal.Gen Cert.Spec
open Idealize.ShloMosaic

/-- The zero bias row the relation projections are called with. -/
def zRow : (⟨S1x128, .f32⟩ : BufTy).Contents (Elt Ideal) :=
  broadcastInDim S1x128 ![] bcast_S_S1x128 (constant (F := Ideal) S_ .f32 0x00000000#32)
/-- The zero table the aggregation is added onto. -/
def zTab : (⟨S100000x128, .f32⟩ : BufTy).Contents (Elt Ideal) :=
  broadcastInDim S100000x128 ![] bcast_S_S100000x128 (constant (F := Ideal) S_ .f32 0x00000000#32)
/-- A bias vector as a one-row table. -/
def bRow (b : (⟨S128, .f32⟩ : BufTy).Contents (Elt Ideal)) : (⟨S1x128, .f32⟩ : BufTy).Contents (Elt Ideal) :=
  shapeCast S1x128 b shapeCasts_S128_S1x128
/-- The one relation's weight matrix. -/
def wMat (w : (⟨S1x128x128, .f32⟩ : BufTy).Contents (Elt Ideal)) : (⟨S128x128, .f32⟩ : BufTy).Contents (Elt Ideal) :=
  shapeCast S128x128 w shapeCasts_S1x128x128_S128x128
/-- The aggregation of a node table over the edges, added onto the zero table. -/
def aggK (h : (⟨S100000x128, .f32⟩ : BufTy).Contents (Elt Ideal)) (e : (⟨S2x800000, .i32⟩ : BufTy).Contents (Elt Ideal))
    (et : (⟨S800000, .i32⟩ : BufTy).Contents (Elt Ideal)) : (⟨S100000x128, .f32⟩ : BufTy).Contents (Elt Ideal) :=
  addf (F := Ideal) (φ := .f32) zTab (Cert.Host.agg (F := Ideal) h (Cert.Host.src (F := Ideal) e) (Cert.Host.dst (F := Ideal) e) (Cert.Host.mask (F := Ideal) et))
/-- The first layer's output: the rectified sum of the root projection and the aggregated relation projection. -/
def hid (x : (⟨S100000x128, .f32⟩ : BufTy).Contents (Elt Ideal)) (e : (⟨S2x800000, .i32⟩ : BufTy).Contents (Elt Ideal))
    (et : (⟨S800000, .i32⟩ : BufTy).Contents (Elt Ideal)) (w1 : (⟨S1x128x128, .f32⟩ : BufTy).Contents (Elt Ideal))
    (r1 : (⟨S128x128, .f32⟩ : BufTy).Contents (Elt Ideal)) (b1 : (⟨S128, .f32⟩ : BufTy).Contents (Elt Ideal)) :
    (⟨S100000x128, .f32⟩ : BufTy).Contents (Elt Ideal) :=
  combRelu (lin x r1 (bRow b1)) (aggK (lin x (wMat w1) zRow) e et)
/-- The kernel's result: the second layer, without the rectifier, on the first layer's output. -/
def out (x : (⟨S100000x128, .f32⟩ : BufTy).Contents (Elt Ideal)) (e : (⟨S2x800000, .i32⟩ : BufTy).Contents (Elt Ideal))
    (et : (⟨S800000, .i32⟩ : BufTy).Contents (Elt Ideal)) (w1 : (⟨S1x128x128, .f32⟩ : BufTy).Contents (Elt Ideal))
    (r1 : (⟨S128x128, .f32⟩ : BufTy).Contents (Elt Ideal)) (b1 : (⟨S128, .f32⟩ : BufTy).Contents (Elt Ideal))
    (w2 : (⟨S1x128x128, .f32⟩ : BufTy).Contents (Elt Ideal))
    (r2 : (⟨S128x128, .f32⟩ : BufTy).Contents (Elt Ideal)) (b2 : (⟨S128, .f32⟩ : BufTy).Contents (Elt Ideal)) :
    (⟨S100000x128, .f32⟩ : BufTy).Contents (Elt Ideal) :=
  comb (lin (hid x e et w1 r1 b1) r2 (bRow b2)) (aggK (lin (hid x e et w1 r1 b1) (wMat w2) zRow) e et)

end Cert.KernelIdeal.Chain

end
-- ==== Proof.KernelValue.lean ====
/-
  The idealized kernel's result as one function of the argument arrays.

  The contents of the unscoped buffers after each of @main's twelve segments are a fold over the launch memory: a
  stretch of host operations writes each operation's result at its result buffer and leaves every other buffer, a
  pallas_call writes its result array (a projection or a combination of its operand arrays as it finds them) and leaves
  every other buffer.  Walking the fold forward, segment by segment, each buffer a later segment reads is named as a
  function of the nine arguments: the first layer's root projection and relation projection, the aggregation of the
  latter over the edges added onto a zero table, the rectified sum `hid`, and the same four steps again from `hid`
  with the second layer's weights, ending in `out`.
-/
import proofs.«132103_j42064909697807_1_alg».proof.Proof.Region0
import proofs.«132103_j42064909697807_1_alg».proof.Proof.Region1
import proofs.«132103_j42064909697807_1_alg».proof.Proof.Region2
import proofs.«132103_j42064909697807_1_alg».proof.Proof.Region3
import proofs.«132103_j42064909697807_1_alg».proof.Proof.Region4
import proofs.«132103_j42064909697807_1_alg».proof.Proof.Region5
import proofs.«132103_j42064909697807_1_alg».proof.Proof.KernelFn
import Idealize.ShloMosaic.Lib.StableHlo.Run

set_option maxRecDepth 16384

noncomputable section

namespace Cert.KernelIdeal.Chain

open Cert.KernelIdeal Cert.KernelIdeal.Gen Cert.Spec
open Idealize.ShloMosaic Idealize.ShloMosaic.TcCoe Idealize.SL.Sem Idealize.ShloMosaic.StableHlo
open Idealize.ShloMosaic.Pipeline (Dat)

/-! ## The fold, segment by segment -/

variable (m : (ℓ : Loc nD τ sig) → Buf (Elt Ideal) ℓ) (ρ : Dev nD → PrngReg) (c : Dev nD)

/-- A stretch of host operations leaves a buffer none of them writes. -/
local macro "host_keep" : tactic => `(tactic| (exact StableHlo.after_of_forall_not_mem _ _ (List.forall_iff_forall_mem.mp (by
  simp only [hostOps0, hostOps1, hostOps2, hostOps3, hostOps4, hostOps5, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))))

/-! ### The arguments, as far along the fold as a later segment reads them -/

theorem W0_arg0 : W0 m ρ c (Proc.devRef .tc main_arg0) = (m ((c : Thread nD τ).loc main_arg0)) := rfl
theorem W0_arg1 : W0 m ρ c (Proc.devRef .tc main_arg1) = (m ((c : Thread nD τ).loc main_arg1)) := rfl
theorem W0_arg2 : W0 m ρ c (Proc.devRef .tc main_arg2) = (m ((c : Thread nD τ).loc main_arg2)) := rfl
theorem W0_arg3 : W0 m ρ c (Proc.devRef .tc main_arg3) = (m ((c : Thread nD τ).loc main_arg3)) := rfl
theorem W0_arg4 : W0 m ρ c (Proc.devRef .tc main_arg4) = (m ((c : Thread nD τ).loc main_arg4)) := rfl
theorem W0_arg5 : W0 m ρ c (Proc.devRef .tc main_arg5) = (m ((c : Thread nD τ).loc main_arg5)) := rfl
theorem W0_arg6 : W0 m ρ c (Proc.devRef .tc main_arg6) = (m ((c : Thread nD τ).loc main_arg6)) := rfl
theorem W0_arg7 : W0 m ρ c (Proc.devRef .tc main_arg7) = (m ((c : Thread nD τ).loc main_arg7)) := rfl
theorem W0_arg8 : W0 m ρ c (Proc.devRef .tc main_arg8) = (m ((c : Thread nD τ).loc main_arg8)) := rfl
theorem W1_arg0 : W1 m ρ c (Proc.devRef .tc main_arg0) = (m ((c : Thread nD τ).loc main_arg0)) :=
  ((by host_keep) : W1 m ρ c (Proc.devRef .tc main_arg0) = W0 m ρ c (Proc.devRef .tc main_arg0)).trans (W0_arg0 m ρ c)
theorem W2_arg0 : W2 m ρ c (Proc.devRef .tc main_arg0) = (m ((c : Thread nD τ).loc main_arg0)) :=
  (((W2_arr m ρ c 0).trans (((dat0 (V1 m ρ) c).arrAt_in 0 rfl _).trans (A_eq0 (V1 m ρ) c 0))) : W2 m ρ c (Proc.devRef .tc main_arg0) = W1 m ρ c (Proc.devRef .tc main_arg0)).trans (W1_arg0 m ρ c)
theorem W3_arg0 : W3 m ρ c (Proc.devRef .tc main_arg0) = (m ((c : Thread nD τ).loc main_arg0)) :=
  ((by host_keep) : W3 m ρ c (Proc.devRef .tc main_arg0) = W2 m ρ c (Proc.devRef .tc main_arg0)).trans (W2_arg0 m ρ c)
theorem W1_arg1 : W1 m ρ c (Proc.devRef .tc main_arg1) = (m ((c : Thread nD τ).loc main_arg1)) :=
  ((by host_keep) : W1 m ρ c (Proc.devRef .tc main_arg1) = W0 m ρ c (Proc.devRef .tc main_arg1)).trans (W0_arg1 m ρ c)
theorem W2_arg1 : W2 m ρ c (Proc.devRef .tc main_arg1) = (m ((c : Thread nD τ).loc main_arg1)) :=
  ((W2_of_ne m ρ c main_arg1 (by decide)) : W2 m ρ c (Proc.devRef .tc main_arg1) = W1 m ρ c (Proc.devRef .tc main_arg1)).trans (W1_arg1 m ρ c)
theorem W3_arg1 : W3 m ρ c (Proc.devRef .tc main_arg1) = (m ((c : Thread nD τ).loc main_arg1)) :=
  ((by host_keep) : W3 m ρ c (Proc.devRef .tc main_arg1) = W2 m ρ c (Proc.devRef .tc main_arg1)).trans (W2_arg1 m ρ c)
theorem W4_arg1 : W4 m ρ c (Proc.devRef .tc main_arg1) = (m ((c : Thread nD τ).loc main_arg1)) :=
  ((W4_of_ne m ρ c main_arg1 (by decide)) : W4 m ρ c (Proc.devRef .tc main_arg1) = W3 m ρ c (Proc.devRef .tc main_arg1)).trans (W3_arg1 m ρ c)
theorem W5_arg1 : W5 m ρ c (Proc.devRef .tc main_arg1) = (m ((c : Thread nD τ).loc main_arg1)) :=
  ((by host_keep) : W5 m ρ c (Proc.devRef .tc main_arg1) = W4 m ρ c (Proc.devRef .tc main_arg1)).trans (W4_arg1 m ρ c)
theorem W6_arg1 : W6 m ρ c (Proc.devRef .tc main_arg1) = (m ((c : Thread nD τ).loc main_arg1)) :=
  ((W6_of_ne m ρ c main_arg1 (by decide)) : W6 m ρ c (Proc.devRef .tc main_arg1) = W5 m ρ c (Proc.devRef .tc main_arg1)).trans (W5_arg1 m ρ c)
theorem W1_arg2 : W1 m ρ c (Proc.devRef .tc main_arg2) = (m ((c : Thread nD τ).loc main_arg2)) :=
  ((by host_keep) : W1 m ρ c (Proc.devRef .tc main_arg2) = W0 m ρ c (Proc.devRef .tc main_arg2)).trans (W0_arg2 m ρ c)
theorem W2_arg2 : W2 m ρ c (Proc.devRef .tc main_arg2) = (m ((c : Thread nD τ).loc main_arg2)) :=
  ((W2_of_ne m ρ c main_arg2 (by decide)) : W2 m ρ c (Proc.devRef .tc main_arg2) = W1 m ρ c (Proc.devRef .tc main_arg2)).trans (W1_arg2 m ρ c)
theorem W3_arg2 : W3 m ρ c (Proc.devRef .tc main_arg2) = (m ((c : Thread nD τ).loc main_arg2)) :=
  ((by host_keep) : W3 m ρ c (Proc.devRef .tc main_arg2) = W2 m ρ c (Proc.devRef .tc main_arg2)).trans (W2_arg2 m ρ c)
theorem W4_arg2 : W4 m ρ c (Proc.devRef .tc main_arg2) = (m ((c : Thread nD τ).loc main_arg2)) :=
  ((W4_of_ne m ρ c main_arg2 (by decide)) : W4 m ρ c (Proc.devRef .tc main_arg2) = W3 m ρ c (Proc.devRef .tc main_arg2)).trans (W3_arg2 m ρ c)
theorem W5_arg2 : W5 m ρ c (Proc.devRef .tc main_arg2) = (m ((c : Thread nD τ).loc main_arg2)) :=
  ((by host_keep) : W5 m ρ c (Proc.devRef .tc main_arg2) = W4 m ρ c (Proc.devRef .tc main_arg2)).trans (W4_arg2 m ρ c)
theorem W6_arg2 : W6 m ρ c (Proc.devRef .tc main_arg2) = (m ((c : Thread nD τ).loc main_arg2)) :=
  ((W6_of_ne m ρ c main_arg2 (by decide)) : W6 m ρ c (Proc.devRef .tc main_arg2) = W5 m ρ c (Proc.devRef .tc main_arg2)).trans (W5_arg2 m ρ c)
theorem W7_arg2 : W7 m ρ c (Proc.devRef .tc main_arg2) = (m ((c : Thread nD τ).loc main_arg2)) :=
  ((by host_keep) : W7 m ρ c (Proc.devRef .tc main_arg2) = W6 m ρ c (Proc.devRef .tc main_arg2)).trans (W6_arg2 m ρ c)
theorem W8_arg2 : W8 m ρ c (Proc.devRef .tc main_arg2) = (m ((c : Thread nD τ).loc main_arg2)) :=
  ((W8_of_ne m ρ c main_arg2 (by decide)) : W8 m ρ c (Proc.devRef .tc main_arg2) = W7 m ρ c (Proc.devRef .tc main_arg2)).trans (W7_arg2 m ρ c)
theorem W1_arg3 : W1 m ρ c (Proc.devRef .tc main_arg3) = (m ((c : Thread nD τ).loc main_arg3)) :=
  ((by host_keep) : W1 m ρ c (Proc.devRef .tc main_arg3) = W0 m ρ c (Proc.devRef .tc main_arg3)).trans (W0_arg3 m ρ c)
theorem W2_arg3 : W2 m ρ c (Proc.devRef .tc main_arg3) = (m ((c : Thread nD τ).loc main_arg3)) :=
  ((W2_of_ne m ρ c main_arg3 (by decide)) : W2 m ρ c (Proc.devRef .tc main_arg3) = W1 m ρ c (Proc.devRef .tc main_arg3)).trans (W1_arg3 m ρ c)
theorem W1_arg4 : W1 m ρ c (Proc.devRef .tc main_arg4) = (m ((c : Thread nD τ).loc main_arg4)) :=
  ((by host_keep) : W1 m ρ c (Proc.devRef .tc main_arg4) = W0 m ρ c (Proc.devRef .tc main_arg4)).trans (W0_arg4 m ρ c)
theorem W1_arg6 : W1 m ρ c (Proc.devRef .tc main_arg6) = (m ((c : Thread nD τ).loc main_arg6)) :=
  ((by host_keep) : W1 m ρ c (Proc.devRef .tc main_arg6) = W0 m ρ c (Proc.devRef .tc main_arg6)).trans (W0_arg6 m ρ c)
theorem W2_arg6 : W2 m ρ c (Proc.devRef .tc main_arg6) = (m ((c : Thread nD τ).loc main_arg6)) :=
  ((W2_of_ne m ρ c main_arg6 (by decide)) : W2 m ρ c (Proc.devRef .tc main_arg6) = W1 m ρ c (Proc.devRef .tc main_arg6)).trans (W1_arg6 m ρ c)
theorem W3_arg6 : W3 m ρ c (Proc.devRef .tc main_arg6) = (m ((c : Thread nD τ).loc main_arg6)) :=
  ((by host_keep) : W3 m ρ c (Proc.devRef .tc main_arg6) = W2 m ρ c (Proc.devRef .tc main_arg6)).trans (W2_arg6 m ρ c)
theorem W4_arg6 : W4 m ρ c (Proc.devRef .tc main_arg6) = (m ((c : Thread nD τ).loc main_arg6)) :=
  ((W4_of_ne m ρ c main_arg6 (by decide)) : W4 m ρ c (Proc.devRef .tc main_arg6) = W3 m ρ c (Proc.devRef .tc main_arg6)).trans (W3_arg6 m ρ c)
theorem W5_arg6 : W5 m ρ c (Proc.devRef .tc main_arg6) = (m ((c : Thread nD τ).loc main_arg6)) :=
  ((by host_keep) : W5 m ρ c (Proc.devRef .tc main_arg6) = W4 m ρ c (Proc.devRef .tc main_arg6)).trans (W4_arg6 m ρ c)
theorem W6_arg6 : W6 m ρ c (Proc.devRef .tc main_arg6) = (m ((c : Thread nD τ).loc main_arg6)) :=
  ((W6_of_ne m ρ c main_arg6 (by decide)) : W6 m ρ c (Proc.devRef .tc main_arg6) = W5 m ρ c (Proc.devRef .tc main_arg6)).trans (W5_arg6 m ρ c)
theorem W7_arg6 : W7 m ρ c (Proc.devRef .tc main_arg6) = (m ((c : Thread nD τ).loc main_arg6)) :=
  ((by host_keep) : W7 m ρ c (Proc.devRef .tc main_arg6) = W6 m ρ c (Proc.devRef .tc main_arg6)).trans (W6_arg6 m ρ c)
theorem W8_arg6 : W8 m ρ c (Proc.devRef .tc main_arg6) = (m ((c : Thread nD τ).loc main_arg6)) :=
  ((W8_of_ne m ρ c main_arg6 (by decide)) : W8 m ρ c (Proc.devRef .tc main_arg6) = W7 m ρ c (Proc.devRef .tc main_arg6)).trans (W7_arg6 m ρ c)
theorem W1_arg7 : W1 m ρ c (Proc.devRef .tc main_arg7) = (m ((c : Thread nD τ).loc main_arg7)) :=
  ((by host_keep) : W1 m ρ c (Proc.devRef .tc main_arg7) = W0 m ρ c (Proc.devRef .tc main_arg7)).trans (W0_arg7 m ρ c)
theorem W2_arg7 : W2 m ρ c (Proc.devRef .tc main_arg7) = (m ((c : Thread nD τ).loc main_arg7)) :=
  ((W2_of_ne m ρ c main_arg7 (by decide)) : W2 m ρ c (Proc.devRef .tc main_arg7) = W1 m ρ c (Proc.devRef .tc main_arg7)).trans (W1_arg7 m ρ c)
theorem W3_arg7 : W3 m ρ c (Proc.devRef .tc main_arg7) = (m ((c : Thread nD τ).loc main_arg7)) :=
  ((by host_keep) : W3 m ρ c (Proc.devRef .tc main_arg7) = W2 m ρ c (Proc.devRef .tc main_arg7)).trans (W2_arg7 m ρ c)
theorem W4_arg7 : W4 m ρ c (Proc.devRef .tc main_arg7) = (m ((c : Thread nD τ).loc main_arg7)) :=
  ((W4_of_ne m ρ c main_arg7 (by decide)) : W4 m ρ c (Proc.devRef .tc main_arg7) = W3 m ρ c (Proc.devRef .tc main_arg7)).trans (W3_arg7 m ρ c)
theorem W5_arg7 : W5 m ρ c (Proc.devRef .tc main_arg7) = (m ((c : Thread nD τ).loc main_arg7)) :=
  ((by host_keep) : W5 m ρ c (Proc.devRef .tc main_arg7) = W4 m ρ c (Proc.devRef .tc main_arg7)).trans (W4_arg7 m ρ c)
theorem W6_arg7 : W6 m ρ c (Proc.devRef .tc main_arg7) = (m ((c : Thread nD τ).loc main_arg7)) :=
  ((W6_of_ne m ρ c main_arg7 (by decide)) : W6 m ρ c (Proc.devRef .tc main_arg7) = W5 m ρ c (Proc.devRef .tc main_arg7)).trans (W5_arg7 m ρ c)
theorem W7_arg7 : W7 m ρ c (Proc.devRef .tc main_arg7) = (m ((c : Thread nD τ).loc main_arg7)) :=
  ((by host_keep) : W7 m ρ c (Proc.devRef .tc main_arg7) = W6 m ρ c (Proc.devRef .tc main_arg7)).trans (W6_arg7 m ρ c)
theorem W1_arg8 : W1 m ρ c (Proc.devRef .tc main_arg8) = (m ((c : Thread nD τ).loc main_arg8)) :=
  ((by host_keep) : W1 m ρ c (Proc.devRef .tc main_arg8) = W0 m ρ c (Proc.devRef .tc main_arg8)).trans (W0_arg8 m ρ c)
theorem W2_arg8 : W2 m ρ c (Proc.devRef .tc main_arg8) = (m ((c : Thread nD τ).loc main_arg8)) :=
  ((W2_of_ne m ρ c main_arg8 (by decide)) : W2 m ρ c (Proc.devRef .tc main_arg8) = W1 m ρ c (Proc.devRef .tc main_arg8)).trans (W1_arg8 m ρ c)
theorem W3_arg8 : W3 m ρ c (Proc.devRef .tc main_arg8) = (m ((c : Thread nD τ).loc main_arg8)) :=
  ((by host_keep) : W3 m ρ c (Proc.devRef .tc main_arg8) = W2 m ρ c (Proc.devRef .tc main_arg8)).trans (W2_arg8 m ρ c)
theorem W4_arg8 : W4 m ρ c (Proc.devRef .tc main_arg8) = (m ((c : Thread nD τ).loc main_arg8)) :=
  ((W4_of_ne m ρ c main_arg8 (by decide)) : W4 m ρ c (Proc.devRef .tc main_arg8) = W3 m ρ c (Proc.devRef .tc main_arg8)).trans (W3_arg8 m ρ c)
theorem W5_arg8 : W5 m ρ c (Proc.devRef .tc main_arg8) = (m ((c : Thread nD τ).loc main_arg8)) :=
  ((by host_keep) : W5 m ρ c (Proc.devRef .tc main_arg8) = W4 m ρ c (Proc.devRef .tc main_arg8)).trans (W4_arg8 m ρ c)
theorem W6_arg8 : W6 m ρ c (Proc.devRef .tc main_arg8) = (m ((c : Thread nD τ).loc main_arg8)) :=
  ((W6_of_ne m ρ c main_arg8 (by decide)) : W6 m ρ c (Proc.devRef .tc main_arg8) = W5 m ρ c (Proc.devRef .tc main_arg8)).trans (W5_arg8 m ρ c)

/-! ### Before and after pallas_call 0: the first layer's root projection -/

theorem W1_v4 : W1 m ρ c (Proc.devRef .tc main_v4) = bRow (m ((c : Thread nD τ).loc main_arg5)) := by
  show StableHlo.after hostOps0 (W0 m ρ c) (Proc.devRef .tc main_v4) = _
  dsimp only [hostOps0]
  after_results
  rw [W0_arg5 m ρ c]
  rfl
theorem W1_v1 : W1 m ρ c (Proc.devRef .tc main_v1) = Cert.Host.src (F := Ideal) (m ((c : Thread nD τ).loc main_arg1)) := by
  show StableHlo.after hostOps0 (W0 m ρ c) (Proc.devRef .tc main_v1) = _
  dsimp only [hostOps0]
  after_results
  rw [W0_arg1 m ρ c]
  rfl
theorem W1_v3 : W1 m ρ c (Proc.devRef .tc main_v3) = Cert.Host.dst (F := Ideal) (m ((c : Thread nD τ).loc main_arg1)) := by
  show StableHlo.after hostOps0 (W0 m ρ c) (Proc.devRef .tc main_v3) = _
  dsimp only [hostOps0]
  after_results
  rw [W0_arg1 m ρ c]
  rfl
theorem W2_v5 : W2 m ρ c (Proc.devRef .tc main_v5) = lin (m ((c : Thread nD τ).loc main_arg0)) (m ((c : Thread nD τ).loc main_arg4)) (bRow (m ((c : Thread nD τ).loc main_arg5))) :=
  (W2_arr m ρ c 3).trans ((Region0.final (V1 m ρ) c).trans
    (congr (congr (congrArg lin (W1_arg0 m ρ c)) (W1_arg4 m ρ c)) (W1_v4 m ρ c)))
theorem W2_v1 : W2 m ρ c (Proc.devRef .tc main_v1) = Cert.Host.src (F := Ideal) (m ((c : Thread nD τ).loc main_arg1)) :=
  ((W2_of_ne m ρ c main_v1 (by decide)) : W2 m ρ c (Proc.devRef .tc main_v1) = W1 m ρ c (Proc.devRef .tc main_v1)).trans (W1_v1 m ρ c)
theorem W3_v1 : W3 m ρ c (Proc.devRef .tc main_v1) = Cert.Host.src (F := Ideal) (m ((c : Thread nD τ).loc main_arg1)) :=
  ((by host_keep) : W3 m ρ c (Proc.devRef .tc main_v1) = W2 m ρ c (Proc.devRef .tc main_v1)).trans (W2_v1 m ρ c)
theorem W4_v1 : W4 m ρ c (Proc.devRef .tc main_v1) = Cert.Host.src (F := Ideal) (m ((c : Thread nD τ).loc main_arg1)) :=
  ((W4_of_ne m ρ c main_v1 (by decide)) : W4 m ρ c (Proc.devRef .tc main_v1) = W3 m ρ c (Proc.devRef .tc main_v1)).trans (W3_v1 m ρ c)
theorem W2_v3 : W2 m ρ c (Proc.devRef .tc main_v3) = Cert.Host.dst (F := Ideal) (m ((c : Thread nD τ).loc main_arg1)) :=
  ((W2_of_ne m ρ c main_v3 (by decide)) : W2 m ρ c (Proc.devRef .tc main_v3) = W1 m ρ c (Proc.devRef .tc main_v3)).trans (W1_v3 m ρ c)
theorem W3_v3 : W3 m ρ c (Proc.devRef .tc main_v3) = Cert.Host.dst (F := Ideal) (m ((c : Thread nD τ).loc main_arg1)) :=
  ((by host_keep) : W3 m ρ c (Proc.devRef .tc main_v3) = W2 m ρ c (Proc.devRef .tc main_v3)).trans (W2_v3 m ρ c)
theorem W4_v3 : W4 m ρ c (Proc.devRef .tc main_v3) = Cert.Host.dst (F := Ideal) (m ((c : Thread nD τ).loc main_arg1)) :=
  ((W4_of_ne m ρ c main_v3 (by decide)) : W4 m ρ c (Proc.devRef .tc main_v3) = W3 m ρ c (Proc.devRef .tc main_v3)).trans (W3_v3 m ρ c)
theorem W3_v5 : W3 m ρ c (Proc.devRef .tc main_v5) = lin (m ((c : Thread nD τ).loc main_arg0)) (m ((c : Thread nD τ).loc main_arg4)) (bRow (m ((c : Thread nD τ).loc main_arg5))) :=
  ((by host_keep) : W3 m ρ c (Proc.devRef .tc main_v5) = W2 m ρ c (Proc.devRef .tc main_v5)).trans (W2_v5 m ρ c)
theorem W4_v5 : W4 m ρ c (Proc.devRef .tc main_v5) = lin (m ((c : Thread nD τ).loc main_arg0)) (m ((c : Thread nD τ).loc main_arg4)) (bRow (m ((c : Thread nD τ).loc main_arg5))) :=
  ((W4_of_ne m ρ c main_v5 (by decide)) : W4 m ρ c (Proc.devRef .tc main_v5) = W3 m ρ c (Proc.devRef .tc main_v5)).trans (W3_v5 m ρ c)
theorem W5_v5 : W5 m ρ c (Proc.devRef .tc main_v5) = lin (m ((c : Thread nD τ).loc main_arg0)) (m ((c : Thread nD τ).loc main_arg4)) (bRow (m ((c : Thread nD τ).loc main_arg5))) :=
  ((by host_keep) : W5 m ρ c (Proc.devRef .tc main_v5) = W4 m ρ c (Proc.devRef .tc main_v5)).trans (W4_v5 m ρ c)

/-! ### Before and after pallas_call 1: the first layer's relation projection -/

theorem W3_v11 : W3 m ρ c (Proc.devRef .tc main_v11) = wMat (m ((c : Thread nD τ).loc main_arg3)) := by
  show StableHlo.after hostOps1 (W2 m ρ c) (Proc.devRef .tc main_v11) = _
  dsimp only [hostOps1]
  after_results
  rw [W2_arg3 m ρ c]
  rfl
theorem W3_v6 : W3 m ρ c (Proc.devRef .tc main_v6) = zRow := by
  show StableHlo.after hostOps1 (W2 m ρ c) (Proc.devRef .tc main_v6) = _
  dsimp only [hostOps1]
  after_results
  rfl
theorem W3_v7 : W3 m ρ c (Proc.devRef .tc main_v7) = zTab := by
  show StableHlo.after hostOps1 (W2 m ρ c) (Proc.devRef .tc main_v7) = _
  dsimp only [hostOps1]
  after_results
  rfl
theorem W3_v10 : W3 m ρ c (Proc.devRef .tc main_v10) = Cert.Host.mask (F := Ideal) (m ((c : Thread nD τ).loc main_arg2)) := by
  show StableHlo.after hostOps1 (W2 m ρ c) (Proc.devRef .tc main_v10) = _
  dsimp only [hostOps1]
  after_results
  rw [W2_arg2 m ρ c]
  rfl
theorem W4_v12 : W4 m ρ c (Proc.devRef .tc main_v12) = lin (m ((c : Thread nD τ).loc main_arg0)) (wMat (m ((c : Thread nD τ).loc main_arg3))) zRow :=
  (W4_arr m ρ c 3).trans ((Region1.final (V3 m ρ) c).trans
    (congr (congr (congrArg lin (W3_arg0 m ρ c)) (W3_v11 m ρ c)) (W3_v6 m ρ c)))
theorem W4_v7 : W4 m ρ c (Proc.devRef .tc main_v7) = zTab :=
  ((W4_of_ne m ρ c main_v7 (by decide)) : W4 m ρ c (Proc.devRef .tc main_v7) = W3 m ρ c (Proc.devRef .tc main_v7)).trans (W3_v7 m ρ c)
theorem W4_v10 : W4 m ρ c (Proc.devRef .tc main_v10) = Cert.Host.mask (F := Ideal) (m ((c : Thread nD τ).loc main_arg2)) :=
  ((W4_of_ne m ρ c main_v10 (by decide)) : W4 m ρ c (Proc.devRef .tc main_v10) = W3 m ρ c (Proc.devRef .tc main_v10)).trans (W3_v10 m ρ c)

/-! ### Before and after pallas_call 2: the aggregation, and the first layer's output -/

set_option maxHeartbeats 4000000 in
theorem W5_v34 : W5 m ρ c (Proc.devRef .tc main_v34) = aggK (lin (m ((c : Thread nD τ).loc main_arg0)) (wMat (m ((c : Thread nD τ).loc main_arg3))) zRow) (m ((c : Thread nD τ).loc main_arg1)) (m ((c : Thread nD τ).loc main_arg2)) := by
  show StableHlo.after hostOps2 (W4 m ρ c) (Proc.devRef .tc main_v34) = _
  dsimp only [hostOps2]
  after_results_simp
  rw [W4_v7 m ρ c, W4_v12 m ρ c, W4_v1 m ρ c, W4_v3 m ρ c, W4_v10 m ρ c]
  rfl
theorem W6_v35 : W6 m ρ c (Proc.devRef .tc main_v35) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 2).trans ((Region2.final (V5 m ρ) c).trans
    (congr (congrArg combRelu (W5_v5 m ρ c)) (W5_v34 m ρ c)))
theorem W7_v35 : W7 m ρ c (Proc.devRef .tc main_v35) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((by host_keep) : W7 m ρ c (Proc.devRef .tc main_v35) = W6 m ρ c (Proc.devRef .tc main_v35)).trans (W6_v35 m ρ c)
theorem W8_v35 : W8 m ρ c (Proc.devRef .tc main_v35) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (((W8_arr m ρ c 0).trans (((dat3 (V7 m ρ) c).arrAt_in 0 rfl _).trans (A_eq3 (V7 m ρ) c 0))) : W8 m ρ c (Proc.devRef .tc main_v35) = W7 m ρ c (Proc.devRef .tc main_v35)).trans (W7_v35 m ρ c)
theorem W9_v35 : W9 m ρ c (Proc.devRef .tc main_v35) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((by host_keep) : W9 m ρ c (Proc.devRef .tc main_v35) = W8 m ρ c (Proc.devRef .tc main_v35)).trans (W8_v35 m ρ c)

/-! ### Before and after pallas_call 3: the second layer's root projection -/

theorem W7_v37 : W7 m ρ c (Proc.devRef .tc main_v37) = Cert.Host.src (F := Ideal) (m ((c : Thread nD τ).loc main_arg1)) := by
  show StableHlo.after hostOps3 (W6 m ρ c) (Proc.devRef .tc main_v37) = _
  dsimp only [hostOps3]
  after_results
  rw [W6_arg1 m ρ c]
  rfl
theorem W7_v39 : W7 m ρ c (Proc.devRef .tc main_v39) = Cert.Host.dst (F := Ideal) (m ((c : Thread nD τ).loc main_arg1)) := by
  show StableHlo.after hostOps3 (W6 m ρ c) (Proc.devRef .tc main_v39) = _
  dsimp only [hostOps3]
  after_results
  rw [W6_arg1 m ρ c]
  rfl
theorem W7_v40 : W7 m ρ c (Proc.devRef .tc main_v40) = bRow (m ((c : Thread nD τ).loc main_arg8)) := by
  show StableHlo.after hostOps3 (W6 m ρ c) (Proc.devRef .tc main_v40) = _
  dsimp only [hostOps3]
  after_results
  rw [W6_arg8 m ρ c]
  rfl
theorem W8_v41 : W8 m ρ c (Proc.devRef .tc main_v41) = lin (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg7)) (bRow (m ((c : Thread nD τ).loc main_arg8))) :=
  (W8_arr m ρ c 3).trans ((Region3.final (V7 m ρ) c).trans
    (congr (congr (congrArg lin (W7_v35 m ρ c)) (W7_arg7 m ρ c)) (W7_v40 m ρ c)))
theorem W8_v37 : W8 m ρ c (Proc.devRef .tc main_v37) = Cert.Host.src (F := Ideal) (m ((c : Thread nD τ).loc main_arg1)) :=
  ((W8_of_ne m ρ c main_v37 (by decide)) : W8 m ρ c (Proc.devRef .tc main_v37) = W7 m ρ c (Proc.devRef .tc main_v37)).trans (W7_v37 m ρ c)
theorem W9_v37 : W9 m ρ c (Proc.devRef .tc main_v37) = Cert.Host.src (F := Ideal) (m ((c : Thread nD τ).loc main_arg1)) :=
  ((by host_keep) : W9 m ρ c (Proc.devRef .tc main_v37) = W8 m ρ c (Proc.devRef .tc main_v37)).trans (W8_v37 m ρ c)
theorem W10_v37 : W10 m ρ c (Proc.devRef .tc main_v37) = Cert.Host.src (F := Ideal) (m ((c : Thread nD τ).loc main_arg1)) :=
  ((W10_of_ne m ρ c main_v37 (by decide)) : W10 m ρ c (Proc.devRef .tc main_v37) = W9 m ρ c (Proc.devRef .tc main_v37)).trans (W9_v37 m ρ c)
theorem W8_v39 : W8 m ρ c (Proc.devRef .tc main_v39) = Cert.Host.dst (F := Ideal) (m ((c : Thread nD τ).loc main_arg1)) :=
  ((W8_of_ne m ρ c main_v39 (by decide)) : W8 m ρ c (Proc.devRef .tc main_v39) = W7 m ρ c (Proc.devRef .tc main_v39)).trans (W7_v39 m ρ c)
theorem W9_v39 : W9 m ρ c (Proc.devRef .tc main_v39) = Cert.Host.dst (F := Ideal) (m ((c : Thread nD τ).loc main_arg1)) :=
  ((by host_keep) : W9 m ρ c (Proc.devRef .tc main_v39) = W8 m ρ c (Proc.devRef .tc main_v39)).trans (W8_v39 m ρ c)
theorem W10_v39 : W10 m ρ c (Proc.devRef .tc main_v39) = Cert.Host.dst (F := Ideal) (m ((c : Thread nD τ).loc main_arg1)) :=
  ((W10_of_ne m ρ c main_v39 (by decide)) : W10 m ρ c (Proc.devRef .tc main_v39) = W9 m ρ c (Proc.devRef .tc main_v39)).trans (W9_v39 m ρ c)
theorem W9_v41 : W9 m ρ c (Proc.devRef .tc main_v41) = lin (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg7)) (bRow (m ((c : Thread nD τ).loc main_arg8))) :=
  ((by host_keep) : W9 m ρ c (Proc.devRef .tc main_v41) = W8 m ρ c (Proc.devRef .tc main_v41)).trans (W8_v41 m ρ c)
theorem W10_v41 : W10 m ρ c (Proc.devRef .tc main_v41) = lin (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg7)) (bRow (m ((c : Thread nD τ).loc main_arg8))) :=
  ((W10_of_ne m ρ c main_v41 (by decide)) : W10 m ρ c (Proc.devRef .tc main_v41) = W9 m ρ c (Proc.devRef .tc main_v41)).trans (W9_v41 m ρ c)
theorem W11_v41 : W11 m ρ c (Proc.devRef .tc main_v41) = lin (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg7)) (bRow (m ((c : Thread nD τ).loc main_arg8))) :=
  ((by host_keep) : W11 m ρ c (Proc.devRef .tc main_v41) = W10 m ρ c (Proc.devRef .tc main_v41)).trans (W10_v41 m ρ c)

/-! ### Before and after pallas_call 4: the second layer's relation projection -/

theorem W9_v42 : W9 m ρ c (Proc.devRef .tc main_v42) = zRow := by
  show StableHlo.after hostOps4 (W8 m ρ c) (Proc.devRef .tc main_v42) = _
  dsimp only [hostOps4]
  after_results
  rfl
theorem W9_v43 : W9 m ρ c (Proc.devRef .tc main_v43) = zTab := by
  show StableHlo.after hostOps4 (W8 m ρ c) (Proc.devRef .tc main_v43) = _
  dsimp only [hostOps4]
  after_results
  rfl
theorem W9_v46 : W9 m ρ c (Proc.devRef .tc main_v46) = Cert.Host.mask (F := Ideal) (m ((c : Thread nD τ).loc main_arg2)) := by
  show StableHlo.after hostOps4 (W8 m ρ c) (Proc.devRef .tc main_v46) = _
  dsimp only [hostOps4]
  after_results
  rw [W8_arg2 m ρ c]
  rfl
theorem W9_v47 : W9 m ρ c (Proc.devRef .tc main_v47) = wMat (m ((c : Thread nD τ).loc main_arg6)) := by
  show StableHlo.after hostOps4 (W8 m ρ c) (Proc.devRef .tc main_v47) = _
  dsimp only [hostOps4]
  after_results
  rw [W8_arg6 m ρ c]
  rfl
theorem W10_v48 : W10 m ρ c (Proc.devRef .tc main_v48) = lin (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wMat (m ((c : Thread nD τ).loc main_arg6))) zRow :=
  (W10_arr m ρ c 3).trans ((Region4.final (V9 m ρ) c).trans
    (congr (congr (congrArg lin (W9_v35 m ρ c)) (W9_v47 m ρ c)) (W9_v42 m ρ c)))
theorem W10_v43 : W10 m ρ c (Proc.devRef .tc main_v43) = zTab :=
  ((W10_of_ne m ρ c main_v43 (by decide)) : W10 m ρ c (Proc.devRef .tc main_v43) = W9 m ρ c (Proc.devRef .tc main_v43)).trans (W9_v43 m ρ c)
theorem W10_v46 : W10 m ρ c (Proc.devRef .tc main_v46) = Cert.Host.mask (F := Ideal) (m ((c : Thread nD τ).loc main_arg2)) :=
  ((W10_of_ne m ρ c main_v46 (by decide)) : W10 m ρ c (Proc.devRef .tc main_v46) = W9 m ρ c (Proc.devRef .tc main_v46)).trans (W9_v46 m ρ c)

/-! ### Before and after pallas_call 5: the aggregation, and the result -/

set_option maxHeartbeats 4000000 in
theorem W11_v70 : W11 m ρ c (Proc.devRef .tc main_v70) = aggK (lin (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wMat (m ((c : Thread nD τ).loc main_arg6))) zRow) (m ((c : Thread nD τ).loc main_arg1)) (m ((c : Thread nD τ).loc main_arg2)) := by
  show StableHlo.after hostOps5 (W10 m ρ c) (Proc.devRef .tc main_v70) = _
  dsimp only [hostOps5]
  after_results_simp
  rw [W10_v43 m ρ c, W10_v48 m ρ c, W10_v37 m ρ c, W10_v39 m ρ c, W10_v46 m ρ c]
  rfl
/-- The result buffer after the last segment is `out` of the arguments. -/
theorem W12_v71 : W12 m ρ c (Proc.devRef .tc main_v71) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans ((Region5.final (V11 m ρ) c).trans
    (congr (congrArg comb (W11_v41 m ρ c)) (W11_v70 m ρ c)))

end Cert.KernelIdeal.Chain

end
-- ==== Proof.RefValue.lean ====
/-
  The reference's result is the two-layer network of the shared host pieces, applied to the argument arrays.
-/
import proofs.«132103_j42064909697807_1_alg».proof.Proof.Gen.ReferenceIdeal.Run
import proofs.«132103_j42064909697807_1_alg».proof.Proof.HostChain

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

set_option maxRecDepth 8192 in
/-- The run's composed term is the network of the arguments. -/
theorem res_eq (m : (ℓ : Loc nD τ sig) → Buf (Elt F) ℓ) (c : Dev nD) :
    res_main_v70 m c = Cert.Host.net (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold res_main_v70 Cert.Host.net Cert.Host.layer Cert.Host.agg Cert.Host.src Cert.Host.dst Cert.Host.mask
  rfl

end Cert.ReferenceIdeal.RefValue

end
-- ==== Proof.Bridge.lean ====
/-
  The kernel's function of the arguments is the reference's.

  On the extended reals: a projection with the bias as a one-row table is the host's dot_general plus the bias
  broadcast down the rows (both are the row-by-column sum plus the bias entry of the column); with a zero bias row
  it is the dot_general itself (x + 0 = x); the aggregation added onto a zero table is the aggregation (0 + x = x);
  the kernel's entrywise sum and rectified sum are the host's add and maximum with a zero table.  These are laws of a
  commutative monoid and of max, so no finiteness of the inputs is used.  The aggregation itself — gather,
  scale, scatter-add, divide by the clamped count — is the same host function on both sides and is never opened.
-/
import proofs.«132103_j42064909697807_1_alg».proof.Proof.KernelFn
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.Gen Cert.KernelIdeal.Chain Cert.Spec Cert.LibDense
open Idealize.ShloMosaic Idealize.ShloMosaic.ValueIdx

/-- The printed contraction record of the reference is the plain `[100000, 128] × [128, 128]` one. -/
theorem dot_plain : dot_S100000x128_S128x128_S100000x128_1_0_0_1_n_n = DotDims.plain 100000 128 128 := rfl

/-- The host's dot_general at an entry is the row-by-column sum. -/
theorem dot_apply (x : (⟨S100000x128, .f32⟩ : BufTy).Contents (Elt Ideal)) (w : (⟨S128x128, .f32⟩ : BufTy).Contents (Elt Ideal))
    (i : S100000x128.Idx) :
    Host.dotGeneral (F := Ideal) (φ₁ := .f32) (φ₂ := .f32) dot_S100000x128_S128x128_S100000x128_1_0_0_1_n_n none x w i = prod x w i := by
  rw [dot_plain]
  exact dotGeneral_plain .single x w i

/-- The zero row is zero everywhere. -/
theorem zRow_apply (j : Cert.KernelIdeal.S1x128.Idx) : zRow j = 0 := by
  unfold zRow
  refine (broadcastInDim_apply _ _ _ j (fun a => a.elim0) (fun a => a.elim0)).trans ?_
  exact Ideal.ofBits_zero_f32

/-- The zero table is zero everywhere. -/
theorem zTab_apply (j : Cert.KernelIdeal.S100000x128.Idx) : zTab j = 0 := by
  unfold zTab
  refine (broadcastInDim_apply _ _ _ j (fun a => a.elim0) (fun a => a.elim0)).trans ?_
  exact Ideal.ofBits_zero_f32

/-- The host's zero table, read at an entry, is the zero word's value. -/
theorem zero_bcast_apply (j : S100000x128.Idx) :
    broadcastInDim S100000x128 ![] bcast_S_S100000x128 (constant (F := Ideal) S_ .f32 0x00000000#32) j = Ideal.ofBits .f32 0x00000000#32 :=
  broadcastInDim_apply _ _ _ j (fun a => a.elim0) (fun a => a.elim0)

/-- A bias vector as a one-row table, at (0, j), and broadcast down the rows by the host, at (r, j): both are entry j. -/
theorem bias_eq (b : (⟨S128, .f32⟩ : BufTy).Contents (Elt Ideal)) (i : S100000x128.Idx) :
    bRow b (ix2 ⟨0, Nat.one_pos⟩ (i 1))
      = broadcastInDim S100000x128 ![0, 1] bcast_S1x128_S100000x128_0_1 (broadcastInDim S1x128 ![1] bcast_S128_S1x128_1 b) i := by
  have hl : bRow b (ix2 ⟨0, Nat.one_pos⟩ (i 1)) = b (ix1 (i 1)) := by
    unfold bRow
    refine (shapeCast_addUnit_apply ![128] b _ _).trans (congrArg b (funext fun a => ?_))
    match a with
    | ⟨0, _⟩ => rfl
  have hr : broadcastInDim S100000x128 ![0, 1] bcast_S1x128_S100000x128_0_1 (broadcastInDim S1x128 ![1] bcast_S128_S1x128_1 b) i
      = b (ix1 (i 1)) := by
    refine (broadcastInDim_apply _ bcast_S1x128_S100000x128_0_1 _ i (ix2 ⟨0, Nat.one_pos⟩ (i 1)) (fun a => ?_)).trans ?_
    · match a with
      | ⟨0, _⟩ => show 0 = if (1 : Nat) = 1 then 0 else (i 0).val; rw [if_pos rfl]
      | ⟨1, _⟩ => show (i 1).val = if (128 : Nat) = 1 then 0 else (i 1).val; rw [if_neg (by decide)]
    · refine broadcastInDim_apply _ bcast_S128_S1x128_1 b (ix2 ⟨0, Nat.one_pos⟩ (i 1)) (ix1 (i 1)) (fun a => ?_)
      match a with
      | ⟨0, _⟩ => show (i 1).val = if (128 : Nat) = 1 then 0 else (i 1).val; rw [if_neg (by decide)]
  rw [hl, hr]

/-- A projection with the bias as a one-row table is the host's dot_general plus the broadcast bias. -/
theorem lin_bias (x : (⟨S100000x128, .f32⟩ : BufTy).Contents (Elt Ideal)) (w : (⟨S128x128, .f32⟩ : BufTy).Contents (Elt Ideal))
    (b : (⟨S128, .f32⟩ : BufTy).Contents (Elt Ideal)) :
    lin x w (bRow b)
      = addf (F := Ideal) (φ := .f32) (Host.dotGeneral (F := Ideal) (φ₁ := .f32) (φ₂ := .f32) dot_S100000x128_S128x128_S100000x128_1_0_0_1_n_n none x w)
          (broadcastInDim S100000x128 ![0, 1] bcast_S1x128_S100000x128_0_1 (broadcastInDim S1x128 ![1] bcast_S128_S1x128_1 b)) := by
  funext i
  show prod x w i + bRow b (ix2 ⟨0, Nat.one_pos⟩ (i 1)) = Host.dotGeneral (F := Ideal) (φ₁ := .f32) (φ₂ := .f32) dot_S100000x128_S128x128_S100000x128_1_0_0_1_n_n none x w i + _
  rw [dot_apply, bias_eq]

/-- A projection with the zero bias row is the host's dot_general. -/
theorem lin_zRow (x : (⟨S100000x128, .f32⟩ : BufTy).Contents (Elt Ideal)) (w : (⟨S128x128, .f32⟩ : BufTy).Contents (Elt Ideal)) :
    lin x w zRow = Host.dotGeneral (F := Ideal) (φ₁ := .f32) (φ₂ := .f32) dot_S100000x128_S128x128_S100000x128_1_0_0_1_n_n none x w := by
  rw [lin_zero x w zRow zRow_apply]
  funext i
  exact (dot_apply x w i).symm

/-- The aggregation added onto the zero table is the aggregation. -/
theorem aggK_eq (h : (⟨S100000x128, .f32⟩ : BufTy).Contents (Elt Ideal)) (e : (⟨S2x800000, .i32⟩ : BufTy).Contents (Elt Ideal))
    (et : (⟨S800000, .i32⟩ : BufTy).Contents (Elt Ideal)) :
    aggK h e et = Cert.Host.agg (F := Ideal) h (Cert.Host.src (F := Ideal) e) (Cert.Host.dst (F := Ideal) e) (Cert.Host.mask (F := Ideal) et) := by
  funext i
  unfold aggK
  rw [addf_apply, zTab_apply, zero_add]

/-- The kernel's entrywise sum is the host's add. -/
theorem comb_eq (a b : (⟨S100000x128, .f32⟩ : BufTy).Contents (Elt Ideal)) : comb a b = addf (F := Ideal) (φ := .f32) a b := rfl

/-- The kernel's rectified sum is the host's maximum of the sum and the zero table. -/
theorem combRelu_eq (a b : (⟨S100000x128, .f32⟩ : BufTy).Contents (Elt Ideal)) :
    combRelu a b = maximumf (F := Ideal) (φ := .f32) (addf (F := Ideal) (φ := .f32) a b)
      (broadcastInDim S100000x128 ![] bcast_S_S100000x128 (constant (F := Ideal) S_ .f32 0x00000000#32)) := by
  funext i
  show max (a i + b i) _ = max (a i + b i) _
  rw [zero_bcast_apply]

/-- One layer of the kernel without the rectifier is one layer of the reference. -/
theorem layer_eq (x : (⟨S100000x128, .f32⟩ : BufTy).Contents (Elt Ideal)) (w : (⟨S1x128x128, .f32⟩ : BufTy).Contents (Elt Ideal))
    (r : (⟨S128x128, .f32⟩ : BufTy).Contents (Elt Ideal)) (b : (⟨S128, .f32⟩ : BufTy).Contents (Elt Ideal))
    (e : (⟨S2x800000, .i32⟩ : BufTy).Contents (Elt Ideal)) (et : (⟨S800000, .i32⟩ : BufTy).Contents (Elt Ideal)) :
    addf (F := Ideal) (φ := .f32) (lin x r (bRow b)) (aggK (lin x (wMat w) zRow) e et) = Cert.Host.layer (F := Ideal) x w r b e et := by
  rw [lin_bias, lin_zRow, aggK_eq]
  unfold Cert.Host.layer wMat
  rfl

/-- The kernel's function of the arguments is the reference's two-layer network. -/
theorem out_eq (x : (⟨S100000x128, .f32⟩ : BufTy).Contents (Elt Ideal)) (e : (⟨S2x800000, .i32⟩ : BufTy).Contents (Elt Ideal))
    (et : (⟨S800000, .i32⟩ : BufTy).Contents (Elt Ideal)) (w1 : (⟨S1x128x128, .f32⟩ : BufTy).Contents (Elt Ideal))
    (r1 : (⟨S128x128, .f32⟩ : BufTy).Contents (Elt Ideal)) (b1 : (⟨S128, .f32⟩ : BufTy).Contents (Elt Ideal))
    (w2 : (⟨S1x128x128, .f32⟩ : BufTy).Contents (Elt Ideal))
    (r2 : (⟨S128x128, .f32⟩ : BufTy).Contents (Elt Ideal)) (b2 : (⟨S128, .f32⟩ : BufTy).Contents (Elt Ideal)) :
    out x e et w1 r1 b1 w2 r2 b2 = Cert.Host.net (F := Ideal) x e et w1 r1 b1 w2 r2 b2 := by
  have hH : hid x e et w1 r1 b1 = maximumf (F := Ideal) (φ := .f32) (Cert.Host.layer (F := Ideal) x w1 r1 b1 e et)
      (broadcastInDim S100000x128 ![] bcast_S_S100000x128 (constant (F := Ideal) S_ .f32 0x00000000#32)) := by
    unfold hid
    rw [combRelu_eq, layer_eq]
  unfold out Cert.Host.net
  rw [hH, comb_eq, layer_eq]

end Cert.Bridge

end
-- ==== Proof.Claims.lean ====
/-
  The five claims.

  The three frames are the generated ones (the reference's is its generated run with the result dropped); the
  ideal pass rewrote nothing, so the kernel's idealization is its own text.  For the value claim both runs end at
  one function of the arguments: the kernel's result buffer holds `out` of its arguments (the fold of its twelve
  segments, read at the result), the reference's holds the two-layer network of the shared host pieces, and the two
  are equal on the extended reals because adding a zero row or adding onto a zero table changes nothing there.
-/
import proofs.«132103_j42064909697807_1_alg».proof.Defs
import proofs.«132103_j42064909697807_1_alg».proof.Proof.Gen.Kernel.Frame
import proofs.«132103_j42064909697807_1_alg».proof.Proof.Gen.KernelIdeal.Frame
import proofs.«132103_j42064909697807_1_alg».proof.Proof.Gen.ReferenceIdeal.Run
import proofs.«132103_j42064909697807_1_alg».proof.Proof.Gen.Pre_finite_inputs
import proofs.«132103_j42064909697807_1_alg».proof.Proof.KernelRun
import proofs.«132103_j42064909697807_1_alg».proof.Proof.KernelValue
import proofs.«132103_j42064909697807_1_alg».proof.Proof.RefValue
import proofs.«132103_j42064909697807_1_alg».proof.Proof.Bridge

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories that agree on the arguments, end with the result at the same function of
    the arguments. -/
theorem algebraic : Cert.algebraic_KernelIdeal_ReferenceIdeal := by
  intro m ρ m' ρ' _ hagree
  refine ⟨fun c => Cert.KernelIdeal.Chain.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.W12_v71 m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.res_eq, h0, h1, h2, h3, h4, h5, h6, h7, h8]
    exact (Cert.Bridge.out_eq _ _ _ _ _ _ _ _ _).symm

end Cert.Proof.Claims

end
-- ==== Proof.lean ====
/-
  The certificate of the two-layer relational graph convolution: the Pallas kernel program (six pallas_calls —
  per layer a root projection, a relation projection and a combining call — among host gathers and scatter-adds)
  against its jnp reference, equal on the extended reals.  The claims are proved in Proof/Claims.lean; the witnesses
  of the programs' stated side conditions are the generated ones.
-/
import proofs.«132103_j42064909697807_1_alg».proof.Defs
import proofs.«132103_j42064909697807_1_alg».proof.Proof.Gen.Kernel
import proofs.«132103_j42064909697807_1_alg».proof.Proof.Gen.KernelIdeal
import proofs.«132103_j42064909697807_1_alg».proof.Proof.Gen.ReferenceIdeal
import proofs.«132103_j42064909697807_1_alg».proof.Proof.Gen.Pre_finite_inputs
import proofs.«132103_j42064909697807_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
